-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S3x128 .f32) (main_arg7 : FVec F S128x64 .f32) (main_arg8 : FVec F S64 .f32) (main_arg9 : FVec F S128x64 .f32) (main_arg10 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S128x64 .f32) (main_arg8 : FVec F S64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S1000x128 : Shape := ⟨2, ![1000, 128]⟩
abbrev S100000x1 : Shape := ⟨2, ![100000, 1]⟩
abbrev S1x64 : Shape := ⟨2, ![1, 64]⟩
abbrev S1000x64 : Shape := ⟨2, ![1000, 64]⟩

abbrev nBuf : Space → Nat
  | .hbm => 98
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S1x128x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S100000x128, .f32⟩
  | .hbm, ⟨90, _⟩ => ⟨S_, .f32⟩
  | .hbm, ⟨91, _⟩ => ⟨S1000x128, .f32⟩
  | .hbm, ⟨92, _⟩ => ⟨S100000x1, .i32⟩
  | .hbm, ⟨93, _⟩ => ⟨S1000x128, .f32⟩
  | .hbm, ⟨94, _⟩ => ⟨S1x64, .f32⟩
  | .hbm, ⟨95, _⟩ => ⟨S1x64, .f32⟩
  | .hbm, ⟨96, _⟩ => ⟨S1000x64, .f32⟩
  | .hbm, ⟨97, _⟩ => ⟨S1000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S1000x128, .f32⟩
  | .local _ .vmem, ⟨25, _⟩ => ⟨S128x64, .f32⟩
  | .local _ .vmem, ⟨26, _⟩ => ⟨S1x64, .f32⟩
  | .local _ .vmem, ⟨27, _⟩ => ⟨S128x64, .f32⟩
  | .local _ .vmem, ⟨28, _⟩ => ⟨S1x64, .f32⟩
  | .local _ .vmem, ⟨29, _⟩ => ⟨S1000x64, .f32⟩
  | .local _ .vmem, ⟨30, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75_0 : Ref sig .tc := ⟨.hbm, 96, rfl⟩
abbrev main_v75_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1000x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1000x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  shapeCasts_S64_S1x64 : S64.ShapeCasts S1x64
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S1000x128_S100000x1_S100000x128_1_0_0_1_wf : ScatterDims.WF S1000x128 S100000x1 S100000x128 [1] [0] [0] 1
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S1000x128.size a
  hwx3_0 : ∀ i : grid3.Coords, EltTy.bits .f32 = 32 ∨ (Rect.block (s := S1000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1000x64.size a ≤ S1000x64.size a
  hwx3_5 : ∀ i : grid3.Coords, EltTy.bits .f32 = 32 ∨ (Rect.block (s := S1000x64) S1000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1000x64.size a ≤ S1000x64.size a
  hwx3_6 : ∀ i : grid3.Coords, EltTy.bits .f32 = 32 ∨ (Rect.block (s := S1000x64) S1000x64.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S1000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75_0) S1000x64.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75_1) S1000x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S100000x1 : Shape := ⟨2, ![100000, 1]⟩
abbrev S1000x64 : Shape := ⟨2, ![1000, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S128x64, .f32⟩
  | 8 => ⟨S64, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S1000x128, .f32⟩
  | 6 => ⟨S100000x1, .i32⟩
  | 7 => ⟨S1000x128, .f32⟩
  | 8 => ⟨S1000x64, .f32⟩
  | 9 => ⟨S1x64, .f32⟩
  | 10 => ⟨S1000x64, .f32⟩
  | 11 => ⟨S1000x64, .f32⟩
  | 12 => ⟨S1000x64, .f32⟩
  | 13 => ⟨S1x64, .f32⟩
  | 14 => ⟨S1000x64, .f32⟩
  | 15 => ⟨S1000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_v33 : Ref sig .tc := ⟨.hbm, 53, rfl⟩
abbrev main_c_1 : Ref sig .tc := ⟨.hbm, 54, rfl⟩
abbrev main_v34 : Ref sig .tc := ⟨.hbm, 55, rfl⟩
abbrev main_v35 : Ref sig .tc := ⟨.hbm, 56, rfl⟩
abbrev main_c_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call3_cst : Ref sig .tc := ⟨.hbm, 76, rfl⟩
abbrev main_call3_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call4_cst : Ref sig .tc := ⟨.hbm, 87, rfl⟩
abbrev main_call4_v0 : Ref sig .tc := ⟨.hbm, 88, rfl⟩
abbrev main_v62 : Ref sig .tc := ⟨.hbm, 89, rfl⟩
abbrev main_call5_cst : Ref sig .tc := ⟨.hbm, 90, rfl⟩
abbrev main_call5_v0 : Ref sig .tc := ⟨.hbm, 91, rfl⟩
abbrev main_v63 : Ref sig .tc := ⟨.hbm, 92, rfl⟩
abbrev main_c_4 : Ref sig .tc := ⟨.hbm, 93, rfl⟩
abbrev main_v64 : Ref sig .tc := ⟨.hbm, 94, rfl⟩
abbrev main_v65 : Ref sig .tc := ⟨.hbm, 95, rfl⟩
abbrev main_c_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_6 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call6_cst : Ref sig .tc := ⟨.hbm, 115, rfl⟩
abbrev main_call6_v0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call7_cst : Ref sig .tc := ⟨.hbm, 126, rfl⟩
abbrev main_call7_v0 : Ref sig .tc := ⟨.hbm, 127, rfl⟩
abbrev main_v92 : Ref sig .tc := ⟨.hbm, 128, rfl⟩
abbrev main_call8_cst : Ref sig .tc := ⟨.hbm, 129, rfl⟩
abbrev main_call8_v0 : Ref sig .tc := ⟨.hbm, 130, rfl⟩
abbrev main_v93 : Ref sig .tc := ⟨.hbm, 131, rfl⟩
abbrev main_cst_7 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S1000x64_0_1 : S1x64.BroadcastsInDim S1000x64 (![0, 1] : Fin 2 → Fin S1000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  dot_S1000x128_S128x64_S1000x64_1_0_0_1_n_n_wf : DotDims.WF S1000x128 S128x64 S1000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

class Facts : Prop extends Facts₀ where

variable [Facts]
-- ==== Proof.KernelRun.lean ====
/-
  The idealized kernel program's run, with its final buffer contents kept.

  The program is four kernel regions among stretches of host operations. Every weakly fair execution terminates without a
  fault, and in the final state every buffer that outlives a region holds the contents of the last segment boundary,
  `W8`: the fold of the host stretches and of each region's write-backs from the launch memory. The frame claim keeps of
  this only the argument buffers; here the whole statement is kept (`run_boundary`), and from it the two result buffers
  at their boundary contents beside the unchanged arguments (`run_results`).
-/
import proofs.«128393_j13718125543797_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives a region at the last
    boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the two results named: each at the last boundary's contents, the arguments as launched. -/
theorem run_results : θ_run defs (onTc (τ := τ) (main (F := F))) ⟨m, fun _ => 0, ρ⟩ (fun r => ∀ c : Dev nD,
      r.2.mem ((c.tc : Thread nD τ).loc main_v75_0) = W8 m ρ c (Proc.devRef .tc main_v75_0)
      ∧ r.2.mem ((c.tc : Thread nD τ).loc main_v75_1) = W8 m ρ c (Proc.devRef .tc main_v75_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v75_0 (by decide)),
       h c _ (mem_uc main_v75_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)
    (run_boundary m ρ)

end Cert.KernelIdeal.Run

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«128393_j13718125543797_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.LibRowBias.lean ====
/-
  A bias row added to every row of a matrix, with or without a clamp at zero from below, over the extended reals.

  `addRow x r` adds to each entry `(p, q)` of an `[a, b]` matrix the entry `(0, q)` of a one-row array `[1, b]`;
  `reluAddRow x r` then takes the maximum with zero (the float whose word is `0x00000000`, kept unevaluated). A host
  program that spreads a `[b]` vector over the rows of the matrix by two `broadcast_in_dim`s (`[b] → [1, b]` on the column
  axis, then `[1, b] → [a, b]`) and adds it — and, for the clamp, takes the maximum with a zero constant broadcast from a
  scalar — computes exactly these functions of the vector RESHAPED to one row: at `(p, q)` both read the vector at `q`.
  So a kernel that is handed the bias as a `[1, b]` row and a host line that broadcasts the `[b]` vector meet in `addRow` /
  `reluAddRow`. Any extents, any proofs of the operations' side conditions; nothing here needs finiteness.
-/
import proofs.«128393_j13718125543797_1_alg».proof.Proof.LibBiasRow
import Idealize.ShloMosaic.PureOps.Ideal
import Idealize.ShloMosaic.Lib.Pipeline.Value
import Idealize.ShloMosaic.Lib.ValueIdx
import Idealize.ShloMosaic.Lib.ValueLayout

noncomputable section

namespace Cert.RowBias

open Idealize.ShloMosaic Idealize.ShloMosaic.ValueIdx

/-- Entry `(p, q)` of the matrix plus entry `(0, q)` of the row. -/
def addRow {a b : ℕ} (x : (⟨2, ![a, b]⟩ : Shape).Idx → EReal) (r : (⟨2, ![1, b]⟩ : Shape).Idx → EReal) :
    (⟨2, ![a, b]⟩ : Shape).Idx → EReal :=
  fun i => x i + r (ix2 (0 : Fin 1) (i 1))

/-- The same, then the maximum with zero (the word `0x00000000` read as a float). -/
def reluAddRow {a b : ℕ} (x : (⟨2, ![a, b]⟩ : Shape).Idx → EReal) (r : (⟨2, ![1, b]⟩ : Shape).Idx → EReal) :
    (⟨2, ![a, b]⟩ : Shape).Idx → EReal :=
  fun i => max (x i + r (ix2 (0 : Fin 1) (i 1))) (Ideal.ofBits .f32 0x00000000#32)

/-- A scalar broadcast to a matrix reads the scalar at every entry. -/
theorem scalar_over_matrix_apply {α : Type} {a b : ℕ} (z : (⟨0, ![]⟩ : Shape).Idx → α)
    (h0 : (⟨0, ![]⟩ : Shape).BroadcastsInDim ⟨2, ![a, b]⟩ ![]) (i : (⟨2, ![a, b]⟩ : Shape).Idx) :
    broadcastInDim ⟨2, ![a, b]⟩ ![] h0 z i = z ix0 :=
  broadcastInDim_apply _ h0 z i ix0 fun ax => ax.elim0

/-- THE HOST'S BIAS ADD: the matrix plus the vector spread over its rows by two `broadcast_in_dim`s is `addRow` of the
    matrix and the vector reshaped to one row. -/
theorem host_addRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    addf x (broadcastInDim ⟨2, ![a, b]⟩ ![0, 1] h2 (broadcastInDim ⟨2, ![1, b]⟩ ![1] h1 v))
      = addRow x (shapeCast ⟨2, ![1, b]⟩ v hc) := by
  funext i
  show x i + broadcastInDim ⟨2, ![a, b]⟩ ![0, 1] h2 (broadcastInDim ⟨2, ![1, b]⟩ ![1] h1 v) i
    = x i + shapeCast ⟨2, ![1, b]⟩ v hc (ix2 (0 : Fin 1) (i 1))
  rw [Cert.BiasRow.row_over_rows_eq_cast v hc h1 h2 i]

/-- THE HOST'S BIAS ADD AND CLAMP: the maximum of that sum with a broadcast zero constant is `reluAddRow`. -/
theorem host_reluAddRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    maximumf (addf x (broadcastInDim ⟨2, ![a, b]⟩ ![0, 1] h2 (broadcastInDim ⟨2, ![1, b]⟩ ![1] h1 v)))
        (broadcastInDim ⟨2, ![a, b]⟩ ![] h0 (constant (F := Ideal) ⟨0, ![]⟩ .f32 0x00000000#32))
      = reluAddRow x (shapeCast ⟨2, ![1, b]⟩ v hc) := by
  funext i
  show max (x i + broadcastInDim ⟨2, ![a, b]⟩ ![0, 1] h2 (broadcastInDim ⟨2, ![1, b]⟩ ![1] h1 v) i)
      (broadcastInDim ⟨2, ![a, b]⟩ ![] h0 (constant (F := Ideal) ⟨0, ![]⟩ .f32 0x00000000#32) i)
    = max (x i + shapeCast ⟨2, ![1, b]⟩ v hc (ix2 (0 : Fin 1) (i 1))) (Ideal.ofBits .f32 0x00000000#32)
  rw [Cert.BiasRow.row_over_rows_eq_cast v hc h1 h2 i, scalar_over_matrix_apply]
  rfl

end Cert.RowBias

end
-- ==== Proof.GinLayer.lean ====
/-
  One GIN layer's dense part and the output heads, as functions of whole arrays over the extended reals.

  A node's new feature row is a two-layer perceptron of its aggregated row `a`:
      relu (relu ((relu (a · W₁ + b₁)) · W₂ + b₂))
  (the outer clamp repeats the one under it; it is kept because both programs apply it). `mlp A W₁ b₁ W₂ b₂` applies this
  to every row of an `[n, 128]` matrix `A`, the biases given as one-row arrays `[1, 128]`. Row `r` of the result depends on
  row `r` of `A` only (`mlp_rows`), which is what lets a kernel compute it block of rows by block of rows. `head g W b` is
  `g · W + b` for the pooled graph features. The matrix products are `rowsTimes` (sums of products of entries), the
  bias steps `addRow` / `reluAddRow`; zero is the float whose word is `0x00000000`, never evaluated. Nothing here uses
  finiteness of the entries.
-/
import proofs.«128393_j13718125543797_1_alg».proof.Proof.LibRowsTimes
import proofs.«128393_j13718125543797_1_alg».proof.Proof.LibRowBias

noncomputable section

namespace Cert.Gin

open Idealize.ShloMosaic Idealize.ShloMosaic.ValueIdx Idealize.ShloMosaic.RowsTimes Cert.RowBias

/-- The clamp at zero from below, entry by entry. -/
def relu {a b : ℕ} (x : (⟨2, ![a, b]⟩ : Shape).Idx → EReal) : (⟨2, ![a, b]⟩ : Shape).Idx → EReal :=
  fun i => max (x i) (Ideal.ofBits .f32 0x00000000#32)

theorem relu_apply {a b : ℕ} (x : (⟨2, ![a, b]⟩ : Shape).Idx → EReal) (i : (⟨2, ![a, b]⟩ : Shape).Idx) :
    relu x i = max (x i) (Ideal.ofBits .f32 0x00000000#32) := rfl

/-- The host's clamp: the maximum with a zero constant broadcast from a scalar. -/
theorem host_relu {a b : ℕ} (x : FVec Ideal ⟨2, ![a, b]⟩ .f32)
    (h0 : (⟨0, ![]⟩ : Shape).BroadcastsInDim ⟨2, ![a, b]⟩ ![]) :
    maximumf x (broadcastInDim ⟨2, ![a, b]⟩ ![] h0 (constant (F := Ideal) ⟨0, ![]⟩ .f32 0x00000000#32)) = relu x := by
  funext i
  show max (x i) (broadcastInDim ⟨2, ![a, b]⟩ ![] h0 (constant (F := Ideal) ⟨0, ![]⟩ .f32 0x00000000#32) i)
    = max (x i) (Ideal.ofBits .f32 0x00000000#32)
  rw [scalar_over_matrix_apply]
  rfl

/-- The perceptron of every row: `relu (relu (relu (A·W₁ + b₁) · W₂ + b₂))`. -/
def mlp {n : ℕ} (A : (⟨2, ![n, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![n, 128]⟩ : Shape).Idx → EReal :=
  relu (reluAddRow (rowsTimes (reluAddRow (rowsTimes A w1) b1) w2) b2)

/-- The perceptron at an entry, written out. -/
theorem mlp_apply {n : ℕ} (A : (⟨2, ![n, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (r : Fin n) (c : Fin 128) :
    mlp A w1 b1 w2 b2 (ix2 r c)
      = max (max ((∑ k : Fin 128,
            max ((∑ j : Fin 128, A (ix2 r j) * w1 (ix2 j k)) + b1 (ix2 (0 : Fin 1) k)) (Ideal.ofBits .f32 0x00000000#32)
              * w2 (ix2 k c)) + b2 (ix2 (0 : Fin 1) c))
          (Ideal.ofBits .f32 0x00000000#32)) (Ideal.ofBits .f32 0x00000000#32) := rfl

/-- ROW LOCALITY: row `r` of the result is the perceptron of row `r` of the matrix alone — two matrices, of any two
    heights, with equal rows `r` and `r'` give equal result rows there. -/
theorem mlp_rows {n n' : ℕ} (A : (⟨2, ![n, 128]⟩ : Shape).Idx → EReal) (A' : (⟨2, ![n', 128]⟩ : Shape).Idx → EReal)
    (w1 : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (r : Fin n) (r' : Fin n') (h : ∀ j : Fin 128, A (ix2 r j) = A' (ix2 r' j)) (c : Fin 128) :
    mlp A w1 b1 w2 b2 (ix2 r c) = mlp A' w1 b1 w2 b2 (ix2 r' c) := by
  rw [mlp_apply, mlp_apply]
  simp only [h]

/-- An output head: the pooled features times a weight matrix plus a bias row. -/
def head {n : ℕ} (g : (⟨2, ![n, 128]⟩ : Shape).Idx → EReal) (w : (⟨2, ![128, 64]⟩ : Shape).Idx → EReal)
    (b : (⟨2, ![1, 64]⟩ : Shape).Idx → EReal) : (⟨2, ![n, 64]⟩ : Shape).Idx → EReal :=
  addRow (rowsTimes g w) b

theorem head_apply {n : ℕ} (g : (⟨2, ![n, 128]⟩ : Shape).Idx → EReal) (w : (⟨2, ![128, 64]⟩ : Shape).Idx → EReal)
    (b : (⟨2, ![1, 64]⟩ : Shape).Idx → EReal) (r : Fin n) (c : Fin 64) :
    head g w b (ix2 r c) = (∑ k : Fin 128, g (ix2 r k) * w (ix2 k c)) + b (ix2 (0 : Fin 1) c) := rfl

end Cert.Gin

end
-- ==== Proof.GinNet.lean ====
/-
  The whole network as ONE function of the argument arrays, over the extended reals.

  A graph-isomorphism layer replaces every node's feature row by the perceptron (`mlp`) of the node's own row plus the sum
  of the rows of the nodes with an edge into it (`agg`: gather the source rows edge by edge, add each into its destination
  row, add the node's own row). The gather and the accumulating scatter are the host's own operations, kept as they are
  printed and never opened: both programs apply the same ones to the same operands. Layer `k` takes its two weight matrices
  and bias rows as slice `k` of the stacked parameters. After three layers the node rows are summed per graph (`pool`) and
  two linear heads give the results.
-/
import proofs.«128393_j13718125543797_1_alg».proof.KernelIdeal
import proofs.«128393_j13718125543797_1_alg».proof.Proof.GinLayer

noncomputable section

namespace Cert.Gin

open Idealize.ShloMosaic Cert.KernelIdeal Cert.KernelIdeal.Facts₀ Cert.KernelIdeal.Facts

variable [Cert.KernelIdeal.Facts]

/-- The source node of every edge: row 0 of the edge list. -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The destination node of every edge: row 1 of the edge list. -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The sources as an index column, a negative index first shifted by the node count. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The destinations as an index column. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (dst ei)

/-- NEIGHBOUR AGGREGATION: every node's row plus the sum of its in-neighbours' rows. -/
def agg (h : (⟨S100000x128, .f32⟩ : BufTy).Contents (Elt Ideal)) (ei : (⟨S2x1600000, .i32⟩ : BufTy).Contents (Elt Ideal)) :
    (⟨S100000x128, .f32⟩ : BufTy).Contents (Elt Ideal) :=
  addf h (Host.scatterAdd scatter_S100000x128_S1600000x1_S1600000x128_1_0_0_1
    (broadcastInDim S100000x128 ![] bcast_S_S100000x128 (constant (F := Ideal) S_ .f32 0x00000000#32)) (dstCol ei)
    (Host.gather gather_S100000x128_S1600000x1_S1600000x128_1_0_n_n_0_1_1128 h (srcCol ei)))

/-- Layer 0's slice of a stack of three weight matrices. -/
def w_0 (a : (⟨S3x128x128, .f32⟩ : BufTy).Contents (Elt Ideal)) : (⟨S128x128, .f32⟩ : BufTy).Contents (Elt Ideal) :=
  shapeCast S128x128 (extractStridedSlice S1x128x128 ![0, 0, 0] a slices_S3x128x128_S1x128x128_0_0_0) shapeCasts_S1x128x128_S128x128
/-- Layer 1's slice. -/
def w_1 (a : (⟨S3x128x128, .f32⟩ : BufTy).Contents (Elt Ideal)) : (⟨S128x128, .f32⟩ : BufTy).Contents (Elt Ideal) :=
  shapeCast S128x128 (extractStridedSlice S1x128x128 ![1, 0, 0] a slices_S3x128x128_S1x128x128_1_0_0) shapeCasts_S1x128x128_S128x128
/-- Layer 2's slice. -/
def w_2 (a : (⟨S3x128x128, .f32⟩ : BufTy).Contents (Elt Ideal)) : (⟨S128x128, .f32⟩ : BufTy).Contents (Elt Ideal) :=
  shapeCast S128x128 (extractStridedSlice S1x128x128 ![2, 0, 0] a slices_S3x128x128_S1x128x128_2_0_0) shapeCasts_S1x128x128_S128x128

/-- Layer 0's bias vector out of a stack of three. -/
def bvec_0 (b : (⟨S3x128, .f32⟩ : BufTy).Contents (Elt Ideal)) : (⟨S128, .f32⟩ : BufTy).Contents (Elt Ideal) :=
  shapeCast S128 (extractStridedSlice S1x128 ![0, 0] b slices_S3x128_S1x128_0_0) shapeCasts_S1x128_S128
/-- Layer 1's bias vector. -/
def bvec_1 (b : (⟨S3x128, .f32⟩ : BufTy).Contents (Elt Ideal)) : (⟨S128, .f32⟩ : BufTy).Contents (Elt Ideal) :=
  shapeCast S128 (extractStridedSlice S1x128 ![1, 0] b slices_S3x128_S1x128_1_0) shapeCasts_S1x128_S128
/-- Layer 2's bias vector. -/
def bvec_2 (b : (⟨S3x128, .f32⟩ : BufTy).Contents (Elt Ideal)) : (⟨S128, .f32⟩ : BufTy).Contents (Elt Ideal) :=
  shapeCast S128 (extractStridedSlice S1x128 ![2, 0] b slices_S3x128_S1x128_2_0) shapeCasts_S1x128_S128

/-- A bias vector as one row. -/
def brow (v : (⟨S128, .f32⟩ : BufTy).Contents (Elt Ideal)) : (⟨S1x128, .f32⟩ : BufTy).Contents (Elt Ideal) :=
  shapeCast S1x128 v shapeCasts_S128_S1x128

/-- A head's bias vector as one row. -/
def hrow (v : (⟨S64, .f32⟩ : BufTy).Contents (Elt Ideal)) : (⟨S1x64, .f32⟩ : BufTy).Contents (Elt Ideal) :=
  shapeCast S1x64 v shapeCasts_S64_S1x64

/-- Layer 0: aggregate, then the perceptron with the stacks' slices 0. -/
def layer_0 (h : (⟨S100000x128, .f32⟩ : BufTy).Contents (Elt Ideal)) (ei : (⟨S2x1600000, .i32⟩ : BufTy).Contents (Elt Ideal))
    (a3 : (⟨S3x128x128, .f32⟩ : BufTy).Contents (Elt Ideal)) (a4 : (⟨S3x128, .f32⟩ : BufTy).Contents (Elt Ideal))
    (a5 : (⟨S3x128x128, .f32⟩ : BufTy).Contents (Elt Ideal)) (a6 : (⟨S3x128, .f32⟩ : BufTy).Contents (Elt Ideal)) :
    (⟨S100000x128, .f32⟩ : BufTy).Contents (Elt Ideal) :=
  mlp (agg h ei) (w_0 a3) (brow (bvec_0 a4)) (w_0 a5) (brow (bvec_0 a6))
/-- Layer 1. -/
def layer_1 (h : (⟨S100000x128, .f32⟩ : BufTy).Contents (Elt Ideal)) (ei : (⟨S2x1600000, .i32⟩ : BufTy).Contents (Elt Ideal))
    (a3 : (⟨S3x128x128, .f32⟩ : BufTy).Contents (Elt Ideal)) (a4 : (⟨S3x128, .f32⟩ : BufTy).Contents (Elt Ideal))
    (a5 : (⟨S3x128x128, .f32⟩ : BufTy).Contents (Elt Ideal)) (a6 : (⟨S3x128, .f32⟩ : BufTy).Contents (Elt Ideal)) :
    (⟨S100000x128, .f32⟩ : BufTy).Contents (Elt Ideal) :=
  mlp (agg h ei) (w_1 a3) (brow (bvec_1 a4)) (w_1 a5) (brow (bvec_1 a6))
/-- Layer 2. -/
def layer_2 (h : (⟨S100000x128, .f32⟩ : BufTy).Contents (Elt Ideal)) (ei : (⟨S2x1600000, .i32⟩ : BufTy).Contents (Elt Ideal))
    (a3 : (⟨S3x128x128, .f32⟩ : BufTy).Contents (Elt Ideal)) (a4 : (⟨S3x128, .f32⟩ : BufTy).Contents (Elt Ideal))
    (a5 : (⟨S3x128x128, .f32⟩ : BufTy).Contents (Elt Ideal)) (a6 : (⟨S3x128, .f32⟩ : BufTy).Contents (Elt Ideal)) :
    (⟨S100000x128, .f32⟩ : BufTy).Contents (Elt Ideal) :=
  mlp (agg h ei) (w_2 a3) (brow (bvec_2 a4)) (w_2 a5) (brow (bvec_2 a6))

/-- The node features after the three layers. -/
def feats (x : (⟨S100000x128, .f32⟩ : BufTy).Contents (Elt Ideal)) (ei : (⟨S2x1600000, .i32⟩ : BufTy).Contents (Elt Ideal))
    (a3 : (⟨S3x128x128, .f32⟩ : BufTy).Contents (Elt Ideal)) (a4 : (⟨S3x128, .f32⟩ : BufTy).Contents (Elt Ideal))
    (a5 : (⟨S3x128x128, .f32⟩ : BufTy).Contents (Elt Ideal)) (a6 : (⟨S3x128, .f32⟩ : BufTy).Contents (Elt Ideal)) :
    (⟨S100000x128, .f32⟩ : BufTy).Contents (Elt Ideal) :=
  layer_2 (layer_1 (layer_0 x ei a3 a4 a5 a6) ei a3 a4 a5 a6) ei a3 a4 a5 a6

/-- GRAPH POOLING: the node rows summed into the row of each node's graph. -/
def pool (h : (⟨S100000x128, .f32⟩ : BufTy).Contents (Elt Ideal)) (batch : (⟨S100000, .i32⟩ : BufTy).Contents (Elt Ideal)) :
    (⟨S1000x128, .f32⟩ : BufTy).Contents (Elt Ideal) :=
  Host.scatterAdd scatter_S1000x128_S100000x1_S100000x128_1_0_0_1
    (broadcastInDim S1000x128 ![] bcast_S_S1000x128 (constant (F := Ideal) S_ .f32 0x00000000#32))
    (broadcastInDim S100000x1 ![0] bcast_S100000_S100000x1_0 batch) h

/-- A RESULT of the network: a linear head of the pooled features of the three-layer network. -/
def out (x : (⟨S100000x128, .f32⟩ : BufTy).Contents (Elt Ideal)) (ei : (⟨S2x1600000, .i32⟩ : BufTy).Contents (Elt Ideal))
    (batch : (⟨S100000, .i32⟩ : BufTy).Contents (Elt Ideal))
    (a3 : (⟨S3x128x128, .f32⟩ : BufTy).Contents (Elt Ideal)) (a4 : (⟨S3x128, .f32⟩ : BufTy).Contents (Elt Ideal))
    (a5 : (⟨S3x128x128, .f32⟩ : BufTy).Contents (Elt Ideal)) (a6 : (⟨S3x128, .f32⟩ : BufTy).Contents (Elt Ideal))
    (w : (⟨S128x64, .f32⟩ : BufTy).Contents (Elt Ideal)) (b : (⟨S64, .f32⟩ : BufTy).Contents (Elt Ideal)) :
    (⟨S1000x64, .f32⟩ : BufTy).Contents (Elt Ideal) :=
  head (pool (feats x ei a3 a4 a5 a6) batch) w (hrow b)

end Cert.Gin

end
-- ==== Proof.KernelChain.lean ====
/-
  The idealized kernel program's two results as the network function of its arguments.

  The program's buffer contents at its segment boundaries are a fold from the launch memory: a stretch of host operations
  applies them, a kernel region replaces its output array by what its grid points write back. Walking that fold: the first
  stretch leaves the aggregated features `agg x ei`, the layer's weight slices and bias rows, and the edge sources and
  destinations; the first region leaves the perceptron of the aggregated rows, which is layer 0 of the network; the next
  two stretches and regions repeat this on the previous layer's output with the next slices (the sources, destinations
  and arguments are read where earlier segments left them: no later operation or region writes them); the last stretch
  pools the node rows per graph and the last region applies the two heads. Each region's value — its output array as the
  perceptron, or the head, of its input arrays as the region finds them — is a hypothesis here.
-/
import proofs.«128393_j13718125543797_1_alg».proof.Proof.Gen.KernelIdeal.Frame
import proofs.«128393_j13718125543797_1_alg».proof.Proof.GinNet
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a stretch writes the buffer: every operation's one written buffer is another. -/
local macro "host_kept" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## After the first stretch -/

set_option maxHeartbeats 1000000 in
theorem agg_at1 : W1 m ρ c (Proc.devRef .tc main_v14) = Cert.Gin.agg (m ((c : Thread nD τ).loc main_arg0)) (m ((c : Thread nD τ).loc main_arg1)) := by
  show StableHlo.after hostOps0 (W0 m ρ c) (Proc.devRef .tc main_v14) = _
  after_results_simp
  rfl
theorem w1_at1 : W1 m ρ c (Proc.devRef .tc main_v16) = Cert.Gin.w_0 (m ((c : Thread nD τ).loc main_arg3)) := by
  show StableHlo.after hostOps0 (W0 m ρ c) (Proc.devRef .tc main_v16) = _
  after_results
  rfl
theorem b1_at1 : W1 m ρ c (Proc.devRef .tc main_v23) = Cert.Gin.brow (Cert.Gin.bvec_0 (m ((c : Thread nD τ).loc main_arg4))) := by
  show StableHlo.after hostOps0 (W0 m ρ c) (Proc.devRef .tc main_v23) = _
  after_results
  rfl
theorem w2_at1 : W1 m ρ c (Proc.devRef .tc main_v20) = Cert.Gin.w_0 (m ((c : Thread nD τ).loc main_arg5)) := by
  show StableHlo.after hostOps0 (W0 m ρ c) (Proc.devRef .tc main_v20) = _
  after_results
  rfl
theorem b2_at1 : W1 m ρ c (Proc.devRef .tc main_v24) = Cert.Gin.brow (Cert.Gin.bvec_0 (m ((c : Thread nD τ).loc main_arg6))) := by
  show StableHlo.after hostOps0 (W0 m ρ c) (Proc.devRef .tc main_v24) = _
  after_results
  rfl
theorem src_at1 : W1 m ρ c (Proc.devRef .tc main_v1) = Cert.Gin.src (m ((c : Thread nD τ).loc main_arg1)) := by
  show StableHlo.after hostOps0 (W0 m ρ c) (Proc.devRef .tc main_v1) = _
  after_results
  rfl
theorem dst_at1 : W1 m ρ c (Proc.devRef .tc main_v3) = Cert.Gin.dst (m ((c : Thread nD τ).loc main_arg1)) := by
  show StableHlo.after hostOps0 (W0 m ρ c) (Proc.devRef .tc main_v3) = _
  after_results
  rfl

/-! ## What later segments find where earlier ones left it -/

theorem arg2_at2 : W2 m ρ c (Proc.devRef .tc main_arg2) = (m ((c : Thread nD τ).loc main_arg2)) :=
  (W2_of_ne m ρ c main_arg2 (by decide)).trans ((show StableHlo.after hostOps0 (W0 m ρ c) (Proc.devRef .tc main_arg2) = W0 m ρ c (Proc.devRef .tc main_arg2) by host_kept hostOps0).trans rfl)
theorem arg3_at2 : W2 m ρ c (Proc.devRef .tc main_arg3) = (m ((c : Thread nD τ).loc main_arg3)) :=
  (W2_of_ne m ρ c main_arg3 (by decide)).trans ((show StableHlo.after hostOps0 (W0 m ρ c) (Proc.devRef .tc main_arg3) = W0 m ρ c (Proc.devRef .tc main_arg3) by host_kept hostOps0).trans rfl)
theorem arg4_at2 : W2 m ρ c (Proc.devRef .tc main_arg4) = (m ((c : Thread nD τ).loc main_arg4)) :=
  (W2_of_ne m ρ c main_arg4 (by decide)).trans ((show StableHlo.after hostOps0 (W0 m ρ c) (Proc.devRef .tc main_arg4) = W0 m ρ c (Proc.devRef .tc main_arg4) by host_kept hostOps0).trans rfl)
theorem arg5_at2 : W2 m ρ c (Proc.devRef .tc main_arg5) = (m ((c : Thread nD τ).loc main_arg5)) :=
  (W2_of_ne m ρ c main_arg5 (by decide)).trans ((show StableHlo.after hostOps0 (W0 m ρ c) (Proc.devRef .tc main_arg5) = W0 m ρ c (Proc.devRef .tc main_arg5) by host_kept hostOps0).trans rfl)
theorem arg6_at2 : W2 m ρ c (Proc.devRef .tc main_arg6) = (m ((c : Thread nD τ).loc main_arg6)) :=
  (W2_of_ne m ρ c main_arg6 (by decide)).trans ((show StableHlo.after hostOps0 (W0 m ρ c) (Proc.devRef .tc main_arg6) = W0 m ρ c (Proc.devRef .tc main_arg6) by host_kept hostOps0).trans rfl)
theorem arg7_at2 : W2 m ρ c (Proc.devRef .tc main_arg7) = (m ((c : Thread nD τ).loc main_arg7)) :=
  (W2_of_ne m ρ c main_arg7 (by decide)).trans ((show StableHlo.after hostOps0 (W0 m ρ c) (Proc.devRef .tc main_arg7) = W0 m ρ c (Proc.devRef .tc main_arg7) by host_kept hostOps0).trans rfl)
theorem arg8_at2 : W2 m ρ c (Proc.devRef .tc main_arg8) = (m ((c : Thread nD τ).loc main_arg8)) :=
  (W2_of_ne m ρ c main_arg8 (by decide)).trans ((show StableHlo.after hostOps0 (W0 m ρ c) (Proc.devRef .tc main_arg8) = W0 m ρ c (Proc.devRef .tc main_arg8) by host_kept hostOps0).trans rfl)
theorem arg9_at2 : W2 m ρ c (Proc.devRef .tc main_arg9) = (m ((c : Thread nD τ).loc main_arg9)) :=
  (W2_of_ne m ρ c main_arg9 (by decide)).trans ((show StableHlo.after hostOps0 (W0 m ρ c) (Proc.devRef .tc main_arg9) = W0 m ρ c (Proc.devRef .tc main_arg9) by host_kept hostOps0).trans rfl)
theorem arg10_at2 : W2 m ρ c (Proc.devRef .tc main_arg10) = (m ((c : Thread nD τ).loc main_arg10)) :=
  (W2_of_ne m ρ c main_arg10 (by decide)).trans ((show StableHlo.after hostOps0 (W0 m ρ c) (Proc.devRef .tc main_arg10) = W0 m ρ c (Proc.devRef .tc main_arg10) by host_kept hostOps0).trans rfl)
theorem arg2_at4 : W4 m ρ c (Proc.devRef .tc main_arg2) = (m ((c : Thread nD τ).loc main_arg2)) :=
  (W4_of_ne m ρ c main_arg2 (by decide)).trans ((show StableHlo.after hostOps1 (W2 m ρ c) (Proc.devRef .tc main_arg2) = W2 m ρ c (Proc.devRef .tc main_arg2) by host_kept hostOps1).trans (arg2_at2 m ρ c))
theorem arg3_at4 : W4 m ρ c (Proc.devRef .tc main_arg3) = (m ((c : Thread nD τ).loc main_arg3)) :=
  (W4_of_ne m ρ c main_arg3 (by decide)).trans ((show StableHlo.after hostOps1 (W2 m ρ c) (Proc.devRef .tc main_arg3) = W2 m ρ c (Proc.devRef .tc main_arg3) by host_kept hostOps1).trans (arg3_at2 m ρ c))
theorem arg4_at4 : W4 m ρ c (Proc.devRef .tc main_arg4) = (m ((c : Thread nD τ).loc main_arg4)) :=
  (W4_of_ne m ρ c main_arg4 (by decide)).trans ((show StableHlo.after hostOps1 (W2 m ρ c) (Proc.devRef .tc main_arg4) = W2 m ρ c (Proc.devRef .tc main_arg4) by host_kept hostOps1).trans (arg4_at2 m ρ c))
theorem arg5_at4 : W4 m ρ c (Proc.devRef .tc main_arg5) = (m ((c : Thread nD τ).loc main_arg5)) :=
  (W4_of_ne m ρ c main_arg5 (by decide)).trans ((show StableHlo.after hostOps1 (W2 m ρ c) (Proc.devRef .tc main_arg5) = W2 m ρ c (Proc.devRef .tc main_arg5) by host_kept hostOps1).trans (arg5_at2 m ρ c))
theorem arg6_at4 : W4 m ρ c (Proc.devRef .tc main_arg6) = (m ((c : Thread nD τ).loc main_arg6)) :=
  (W4_of_ne m ρ c main_arg6 (by decide)).trans ((show StableHlo.after hostOps1 (W2 m ρ c) (Proc.devRef .tc main_arg6) = W2 m ρ c (Proc.devRef .tc main_arg6) by host_kept hostOps1).trans (arg6_at2 m ρ c))
theorem arg7_at4 : W4 m ρ c (Proc.devRef .tc main_arg7) = (m ((c : Thread nD τ).loc main_arg7)) :=
  (W4_of_ne m ρ c main_arg7 (by decide)).trans ((show StableHlo.after hostOps1 (W2 m ρ c) (Proc.devRef .tc main_arg7) = W2 m ρ c (Proc.devRef .tc main_arg7) by host_kept hostOps1).trans (arg7_at2 m ρ c))
theorem arg8_at4 : W4 m ρ c (Proc.devRef .tc main_arg8) = (m ((c : Thread nD τ).loc main_arg8)) :=
  (W4_of_ne m ρ c main_arg8 (by decide)).trans ((show StableHlo.after hostOps1 (W2 m ρ c) (Proc.devRef .tc main_arg8) = W2 m ρ c (Proc.devRef .tc main_arg8) by host_kept hostOps1).trans (arg8_at2 m ρ c))
theorem arg9_at4 : W4 m ρ c (Proc.devRef .tc main_arg9) = (m ((c : Thread nD τ).loc main_arg9)) :=
  (W4_of_ne m ρ c main_arg9 (by decide)).trans ((show StableHlo.after hostOps1 (W2 m ρ c) (Proc.devRef .tc main_arg9) = W2 m ρ c (Proc.devRef .tc main_arg9) by host_kept hostOps1).trans (arg9_at2 m ρ c))
theorem arg10_at4 : W4 m ρ c (Proc.devRef .tc main_arg10) = (m ((c : Thread nD τ).loc main_arg10)) :=
  (W4_of_ne m ρ c main_arg10 (by decide)).trans ((show StableHlo.after hostOps1 (W2 m ρ c) (Proc.devRef .tc main_arg10) = W2 m ρ c (Proc.devRef .tc main_arg10) by host_kept hostOps1).trans (arg10_at2 m ρ c))
theorem arg2_at6 : W6 m ρ c (Proc.devRef .tc main_arg2) = (m ((c : Thread nD τ).loc main_arg2)) :=
  (W6_of_ne m ρ c main_arg2 (by decide)).trans ((show StableHlo.after hostOps2 (W4 m ρ c) (Proc.devRef .tc main_arg2) = W4 m ρ c (Proc.devRef .tc main_arg2) by host_kept hostOps2).trans (arg2_at4 m ρ c))
theorem arg7_at6 : W6 m ρ c (Proc.devRef .tc main_arg7) = (m ((c : Thread nD τ).loc main_arg7)) :=
  (W6_of_ne m ρ c main_arg7 (by decide)).trans ((show StableHlo.after hostOps2 (W4 m ρ c) (Proc.devRef .tc main_arg7) = W4 m ρ c (Proc.devRef .tc main_arg7) by host_kept hostOps2).trans (arg7_at4 m ρ c))
theorem arg8_at6 : W6 m ρ c (Proc.devRef .tc main_arg8) = (m ((c : Thread nD τ).loc main_arg8)) :=
  (W6_of_ne m ρ c main_arg8 (by decide)).trans ((show StableHlo.after hostOps2 (W4 m ρ c) (Proc.devRef .tc main_arg8) = W4 m ρ c (Proc.devRef .tc main_arg8) by host_kept hostOps2).trans (arg8_at4 m ρ c))
theorem arg9_at6 : W6 m ρ c (Proc.devRef .tc main_arg9) = (m ((c : Thread nD τ).loc main_arg9)) :=
  (W6_of_ne m ρ c main_arg9 (by decide)).trans ((show StableHlo.after hostOps2 (W4 m ρ c) (Proc.devRef .tc main_arg9) = W4 m ρ c (Proc.devRef .tc main_arg9) by host_kept hostOps2).trans (arg9_at4 m ρ c))
theorem arg10_at6 : W6 m ρ c (Proc.devRef .tc main_arg10) = (m ((c : Thread nD τ).loc main_arg10)) :=
  (W6_of_ne m ρ c main_arg10 (by decide)).trans ((show StableHlo.after hostOps2 (W4 m ρ c) (Proc.devRef .tc main_arg10) = W4 m ρ c (Proc.devRef .tc main_arg10) by host_kept hostOps2).trans (arg10_at4 m ρ c))
theorem arg7_at7 : W7 m ρ c (Proc.devRef .tc main_arg7) = (m ((c : Thread nD τ).loc main_arg7)) :=
  (show StableHlo.after hostOps3 (W6 m ρ c) (Proc.devRef .tc main_arg7) = W6 m ρ c (Proc.devRef .tc main_arg7) by host_kept hostOps3).trans (arg7_at6 m ρ c)
theorem arg9_at7 : W7 m ρ c (Proc.devRef .tc main_arg9) = (m ((c : Thread nD τ).loc main_arg9)) :=
  (show StableHlo.after hostOps3 (W6 m ρ c) (Proc.devRef .tc main_arg9) = W6 m ρ c (Proc.devRef .tc main_arg9) by host_kept hostOps3).trans (arg9_at6 m ρ c)

theorem src_at2 : W2 m ρ c (Proc.devRef .tc main_v1) = Cert.Gin.src (m ((c : Thread nD τ).loc main_arg1)) :=
  (W2_of_ne m ρ c main_v1 (by decide)).trans (src_at1 m ρ c)
theorem dst_at2 : W2 m ρ c (Proc.devRef .tc main_v3) = Cert.Gin.dst (m ((c : Thread nD τ).loc main_arg1)) :=
  (W2_of_ne m ρ c main_v3 (by decide)).trans (dst_at1 m ρ c)
theorem src_at4 : W4 m ρ c (Proc.devRef .tc main_v1) = Cert.Gin.src (m ((c : Thread nD τ).loc main_arg1)) :=
  (W4_of_ne m ρ c main_v1 (by decide)).trans ((show StableHlo.after hostOps1 (W2 m ρ c) (Proc.devRef .tc main_v1) = W2 m ρ c (Proc.devRef .tc main_v1) by host_kept hostOps1).trans (src_at2 m ρ c))
theorem dst_at4 : W4 m ρ c (Proc.devRef .tc main_v3) = Cert.Gin.dst (m ((c : Thread nD τ).loc main_arg1)) :=
  (W4_of_ne m ρ c main_v3 (by decide)).trans ((show StableHlo.after hostOps1 (W2 m ρ c) (Proc.devRef .tc main_v3) = W2 m ρ c (Proc.devRef .tc main_v3) by host_kept hostOps1).trans (dst_at2 m ρ c))

/-! ## Layer 0 -/

theorem layer0_at2 (h0 : (∀ (V : (c : Dev nD) → (b : Ref sig .tc) → Buf (Elt Ideal) ((c : Thread nD τ).loc b)) (c : Dev nD), (dat0 (F := Ideal) V c).arrAt 5 cfg0.N = Cert.Gin.mlp (V c main_v14) (V c main_v16) (V c main_v23) (V c main_v20) (V c main_v24))) :
    W2 m ρ c (Proc.devRef .tc main_v25) = Cert.Gin.layer_0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 5).trans ((h0 (V1 m ρ) c).trans ?_)
  show Cert.Gin.mlp (W1 m ρ c (Proc.devRef .tc main_v14)) (W1 m ρ c (Proc.devRef .tc main_v16)) (W1 m ρ c (Proc.devRef .tc main_v23)) (W1 m ρ c (Proc.devRef .tc main_v20)) (W1 m ρ c (Proc.devRef .tc main_v24)) = _
  rw [agg_at1, w1_at1, b1_at1, w2_at1, b2_at1]
  rfl

/-! ## Layer 1 -/

set_option maxHeartbeats 1000000 in
theorem agg_at3 (X : (⟨S100000x128, .f32⟩ : BufTy).Contents (Elt Ideal)) (H : W2 m ρ c (Proc.devRef .tc main_v25) = X) :
    W3 m ρ c (Proc.devRef .tc main_v36) = Cert.Gin.agg X (m ((c : Thread nD τ).loc main_arg1)) := by
  show StableHlo.after hostOps1 (W2 m ρ c) (Proc.devRef .tc main_v36) = _
  after_results_simp
  rw [H, src_at2 m ρ c, dst_at2 m ρ c]
  rfl
theorem w1_at3 : W3 m ρ c (Proc.devRef .tc main_v38) = Cert.Gin.w_1 (m ((c : Thread nD τ).loc main_arg3)) := by
  show StableHlo.after hostOps1 (W2 m ρ c) (Proc.devRef .tc main_v38) = _
  after_results
  rw [arg3_at2 m ρ c]
  rfl
theorem b1_at3 : W3 m ρ c (Proc.devRef .tc main_v45) = Cert.Gin.brow (Cert.Gin.bvec_1 (m ((c : Thread nD τ).loc main_arg4))) := by
  show StableHlo.after hostOps1 (W2 m ρ c) (Proc.devRef .tc main_v45) = _
  after_results
  rw [arg4_at2 m ρ c]
  rfl
theorem w2_at3 : W3 m ρ c (Proc.devRef .tc main_v42) = Cert.Gin.w_1 (m ((c : Thread nD τ).loc main_arg5)) := by
  show StableHlo.after hostOps1 (W2 m ρ c) (Proc.devRef .tc main_v42) = _
  after_results
  rw [arg5_at2 m ρ c]
  rfl
theorem b2_at3 : W3 m ρ c (Proc.devRef .tc main_v46) = Cert.Gin.brow (Cert.Gin.bvec_1 (m ((c : Thread nD τ).loc main_arg6))) := by
  show StableHlo.after hostOps1 (W2 m ρ c) (Proc.devRef .tc main_v46) = _
  after_results
  rw [arg6_at2 m ρ c]
  rfl

theorem layer1_at4 (h1 : (∀ (V : (c : Dev nD) → (b : Ref sig .tc) → Buf (Elt Ideal) ((c : Thread nD τ).loc b)) (c : Dev nD), (dat1 (F := Ideal) V c).arrAt 5 cfg1.N = Cert.Gin.mlp (V c main_v36) (V c main_v38) (V c main_v45) (V c main_v42) (V c main_v46))) (X : (⟨S100000x128, .f32⟩ : BufTy).Contents (Elt Ideal))
    (H : W2 m ρ c (Proc.devRef .tc main_v25) = X) :
    W4 m ρ c (Proc.devRef .tc main_v47) = Cert.Gin.layer_1 X (m ((c : Thread nD τ).loc main_arg1)) (m ((c : Thread nD τ).loc main_arg3)) (m ((c : Thread nD τ).loc main_arg4)) (m ((c : Thread nD τ).loc main_arg5)) (m ((c : Thread nD τ).loc main_arg6)) := by
  refine (W4_arr m ρ c 5).trans ((h1 (V3 m ρ) c).trans ?_)
  show Cert.Gin.mlp (W3 m ρ c (Proc.devRef .tc main_v36)) (W3 m ρ c (Proc.devRef .tc main_v38)) (W3 m ρ c (Proc.devRef .tc main_v45)) (W3 m ρ c (Proc.devRef .tc main_v42)) (W3 m ρ c (Proc.devRef .tc main_v46)) = _
  rw [agg_at3 m ρ c X H, w1_at3, b1_at3, w2_at3, b2_at3]
  rfl

/-! ## Layer 2 -/

set_option maxHeartbeats 1000000 in
theorem agg_at5 (X : (⟨S100000x128, .f32⟩ : BufTy).Contents (Elt Ideal)) (H : W4 m ρ c (Proc.devRef .tc main_v47) = X) :
    W5 m ρ c (Proc.devRef .tc main_v58) = Cert.Gin.agg X (m ((c : Thread nD τ).loc main_arg1)) := by
  show StableHlo.after hostOps2 (W4 m ρ c) (Proc.devRef .tc main_v58) = _
  after_results_simp
  rw [H, src_at4 m ρ c, dst_at4 m ρ c]
  rfl
theorem w1_at5 : W5 m ρ c (Proc.devRef .tc main_v60) = Cert.Gin.w_2 (m ((c : Thread nD τ).loc main_arg3)) := by
  show StableHlo.after hostOps2 (W4 m ρ c) (Proc.devRef .tc main_v60) = _
  after_results
  rw [arg3_at4 m ρ c]
  rfl
theorem b1_at5 : W5 m ρ c (Proc.devRef .tc main_v67) = Cert.Gin.brow (Cert.Gin.bvec_2 (m ((c : Thread nD τ).loc main_arg4))) := by
  show StableHlo.after hostOps2 (W4 m ρ c) (Proc.devRef .tc main_v67) = _
  after_results
  rw [arg4_at4 m ρ c]
  rfl
theorem w2_at5 : W5 m ρ c (Proc.devRef .tc main_v64) = Cert.Gin.w_2 (m ((c : Thread nD τ).loc main_arg5)) := by
  show StableHlo.after hostOps2 (W4 m ρ c) (Proc.devRef .tc main_v64) = _
  after_results
  rw [arg5_at4 m ρ c]
  rfl
theorem b2_at5 : W5 m ρ c (Proc.devRef .tc main_v68) = Cert.Gin.brow (Cert.Gin.bvec_2 (m ((c : Thread nD τ).loc main_arg6))) := by
  show StableHlo.after hostOps2 (W4 m ρ c) (Proc.devRef .tc main_v68) = _
  after_results
  rw [arg6_at4 m ρ c]
  rfl

theorem layer2_at6 (h2 : (∀ (V : (c : Dev nD) → (b : Ref sig .tc) → Buf (Elt Ideal) ((c : Thread nD τ).loc b)) (c : Dev nD), (dat2 (F := Ideal) V c).arrAt 5 cfg2.N = Cert.Gin.mlp (V c main_v58) (V c main_v60) (V c main_v67) (V c main_v64) (V c main_v68))) (X : (⟨S100000x128, .f32⟩ : BufTy).Contents (Elt Ideal))
    (H : W4 m ρ c (Proc.devRef .tc main_v47) = X) :
    W6 m ρ c (Proc.devRef .tc main_v69) = Cert.Gin.layer_2 X (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 5).trans ((h2 (V5 m ρ) c).trans ?_)
  show Cert.Gin.mlp (W5 m ρ c (Proc.devRef .tc main_v58)) (W5 m ρ c (Proc.devRef .tc main_v60)) (W5 m ρ c (Proc.devRef .tc main_v67)) (W5 m ρ c (Proc.devRef .tc main_v64)) (W5 m ρ c (Proc.devRef .tc main_v68)) = _
  rw [agg_at5 m ρ c X H, w1_at5, b1_at5, w2_at5, b2_at5]
  rfl

/-! ## Pooling and the heads -/

theorem pool_at7 (X : (⟨S100000x128, .f32⟩ : BufTy).Contents (Elt Ideal)) (H : W6 m ρ c (Proc.devRef .tc main_v69) = X) :
    W7 m ρ c (Proc.devRef .tc main_v72) = Cert.Gin.pool X (m ((c : Thread nD τ).loc main_arg2)) := by
  show StableHlo.after hostOps3 (W6 m ρ c) (Proc.devRef .tc main_v72) = _
  after_results
  rw [H, arg2_at6 m ρ c]
  rfl
theorem bmu_at7 : W7 m ρ c (Proc.devRef .tc main_v73) = Cert.Gin.hrow (m ((c : Thread nD τ).loc main_arg8)) := by
  show StableHlo.after hostOps3 (W6 m ρ c) (Proc.devRef .tc main_v73) = _
  after_results
  rw [arg8_at6 m ρ c]
  rfl
theorem blv_at7 : W7 m ρ c (Proc.devRef .tc main_v74) = Cert.Gin.hrow (m ((c : Thread nD τ).loc main_arg10)) := by
  show StableHlo.after hostOps3 (W6 m ρ c) (Proc.devRef .tc main_v74) = _
  after_results
  rw [arg10_at6 m ρ c]
  rfl

theorem mu_at8 (hmu : (∀ (V : (c : Dev nD) → (b : Ref sig .tc) → Buf (Elt Ideal) ((c : Thread nD τ).loc b)) (c : Dev nD), (dat3 (F := Ideal) V c).arrAt 5 cfg3.N = Cert.Gin.head (V c main_v72) (V c main_arg7) (V c main_v73))) (X : (⟨S100000x128, .f32⟩ : BufTy).Contents (Elt Ideal))
    (H : W6 m ρ c (Proc.devRef .tc main_v69) = X) :
    W8 m ρ c (Proc.devRef .tc main_v75_0) = Cert.Gin.head (Cert.Gin.pool X (m ((c : Thread nD τ).loc main_arg2))) (m ((c : Thread nD τ).loc main_arg7)) (Cert.Gin.hrow (m ((c : Thread nD τ).loc main_arg8))) := by
  refine (W8_arr m ρ c 5).trans ((hmu (V7 m ρ) c).trans ?_)
  show Cert.Gin.head (W7 m ρ c (Proc.devRef .tc main_v72)) (W7 m ρ c (Proc.devRef .tc main_arg7)) (W7 m ρ c (Proc.devRef .tc main_v73)) = _
  rw [pool_at7 m ρ c X H, arg7_at7, bmu_at7]
theorem lv_at8 (hlv : (∀ (V : (c : Dev nD) → (b : Ref sig .tc) → Buf (Elt Ideal) ((c : Thread nD τ).loc b)) (c : Dev nD), (dat3 (F := Ideal) V c).arrAt 6 cfg3.N = Cert.Gin.head (V c main_v72) (V c main_arg9) (V c main_v74))) (X : (⟨S100000x128, .f32⟩ : BufTy).Contents (Elt Ideal))
    (H : W6 m ρ c (Proc.devRef .tc main_v69) = X) :
    W8 m ρ c (Proc.devRef .tc main_v75_1) = Cert.Gin.head (Cert.Gin.pool X (m ((c : Thread nD τ).loc main_arg2))) (m ((c : Thread nD τ).loc main_arg9)) (Cert.Gin.hrow (m ((c : Thread nD τ).loc main_arg10))) := by
  refine (W8_arr m ρ c 6).trans ((hlv (V7 m ρ) c).trans ?_)
  show Cert.Gin.head (W7 m ρ c (Proc.devRef .tc main_v72)) (W7 m ρ c (Proc.devRef .tc main_arg9)) (W7 m ρ c (Proc.devRef .tc main_v74)) = _
  rw [pool_at7 m ρ c X H, arg9_at7, blv_at7]

/-! ## The two results -/

/-- The first result buffer ends holding the first head of the network of the launch arguments. -/
theorem mu_eq (h0 : (∀ (V : (c : Dev nD) → (b : Ref sig .tc) → Buf (Elt Ideal) ((c : Thread nD τ).loc b)) (c : Dev nD), (dat0 (F := Ideal) V c).arrAt 5 cfg0.N = Cert.Gin.mlp (V c main_v14) (V c main_v16) (V c main_v23) (V c main_v20) (V c main_v24)))
    (h1 : (∀ (V : (c : Dev nD) → (b : Ref sig .tc) → Buf (Elt Ideal) ((c : Thread nD τ).loc b)) (c : Dev nD), (dat1 (F := Ideal) V c).arrAt 5 cfg1.N = Cert.Gin.mlp (V c main_v36) (V c main_v38) (V c main_v45) (V c main_v42) (V c main_v46)))
    (h2 : (∀ (V : (c : Dev nD) → (b : Ref sig .tc) → Buf (Elt Ideal) ((c : Thread nD τ).loc b)) (c : Dev nD), (dat2 (F := Ideal) V c).arrAt 5 cfg2.N = Cert.Gin.mlp (V c main_v58) (V c main_v60) (V c main_v67) (V c main_v64) (V c main_v68)))
    (hmu : (∀ (V : (c : Dev nD) → (b : Ref sig .tc) → Buf (Elt Ideal) ((c : Thread nD τ).loc b)) (c : Dev nD), (dat3 (F := Ideal) V c).arrAt 5 cfg3.N = Cert.Gin.head (V c main_v72) (V c main_arg7) (V c main_v73))) :
    W8 m ρ c (Proc.devRef .tc main_v75_0) = Cert.Gin.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  mu_at8 m ρ c hmu _ (layer2_at6 m ρ c h2 _ (layer1_at4 m ρ c h1 _ (layer0_at2 m ρ c h0)))

/-- The second result buffer ends holding the second head. -/
theorem lv_eq (h0 : (∀ (V : (c : Dev nD) → (b : Ref sig .tc) → Buf (Elt Ideal) ((c : Thread nD τ).loc b)) (c : Dev nD), (dat0 (F := Ideal) V c).arrAt 5 cfg0.N = Cert.Gin.mlp (V c main_v14) (V c main_v16) (V c main_v23) (V c main_v20) (V c main_v24)))
    (h1 : (∀ (V : (c : Dev nD) → (b : Ref sig .tc) → Buf (Elt Ideal) ((c : Thread nD τ).loc b)) (c : Dev nD), (dat1 (F := Ideal) V c).arrAt 5 cfg1.N = Cert.Gin.mlp (V c main_v36) (V c main_v38) (V c main_v45) (V c main_v42) (V c main_v46)))
    (h2 : (∀ (V : (c : Dev nD) → (b : Ref sig .tc) → Buf (Elt Ideal) ((c : Thread nD τ).loc b)) (c : Dev nD), (dat2 (F := Ideal) V c).arrAt 5 cfg2.N = Cert.Gin.mlp (V c main_v58) (V c main_v60) (V c main_v67) (V c main_v64) (V c main_v68)))
    (hlv : (∀ (V : (c : Dev nD) → (b : Ref sig .tc) → Buf (Elt Ideal) ((c : Thread nD τ).loc b)) (c : Dev nD), (dat3 (F := Ideal) V c).arrAt 6 cfg3.N = Cert.Gin.head (V c main_v72) (V c main_arg9) (V c main_v74))) :
    W8 m ρ c (Proc.devRef .tc main_v75_1) = Cert.Gin.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  lv_at8 m ρ c hlv _ (layer2_at6 m ρ c h2 _ (layer1_at4 m ρ c h1 _ (layer0_at2 m ρ c h0)))

end Cert.KernelIdeal.Chain

end
-- ==== Proof.MlpRegion0.lean ====
/-
  The first perceptron region of the network, read as one function of the arrays it is entered with.

  The region walks a grid of 10 points. At point `t` it is handed rows `10000·t … 10000·t + 9999` of the `[100000, 128]`
  feature matrix, the two `[128, 128]` weight matrices and the two `[1, 128]` bias rows whole, and it writes back the same
  rows of the `[100000, 128]` result. What it writes is the two-layer perceptron of the block it was handed: a change of
  float format is the identity over the extended reals, a matrix product into a zero accumulator is the plain sum of
  products, a `[1, 128]` row broadcast over the rows reads the row at the column, and the maximum with a broadcast zero is
  the clamp. Row `r` of the perceptron depends on row `r` of the matrix only, so block `t` of the perceptron of the whole
  matrix is the perceptron of block `t`; the ten blocks tile the result, so the result array IS the perceptron of the whole
  matrix. Nothing here uses finiteness of the entries.
-/
import proofs.«128393_j13718125543797_1_alg».proof.Proof.Gen.KernelIdeal.Frame
import proofs.«128393_j13718125543797_1_alg».proof.Proof.GinLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpRegion0

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowsTimes Cert.RowBias

/-! ## One dense layer of the body: product, bias row, clamp -/

/-- A block of rows (already in the product's operand format) times a weight matrix into the zero accumulator, plus the
    bias row broadcast over the rows, clamped at zero from below: entry `(p, q)` is
    `max (∑ k, x (p, k) · w (k, q) + b (0, q)) 0`. -/
theorem layer_eq (x : FVec Ideal S10000x128 .bf16) (w : FVec Ideal S128x128 .f32) (b : FVec Ideal S1x128 .f32) :
    maximumf (addf (matmul dot_S10000x128_S128x128_S10000x128_1_0_0_1_n_n none x
            (truncf .bf16 (shapeCast S128x128 w shapeCasts_S128x128_S128x128) bitsLt_bf16_f32)
            (constant S10000x128 .f32 0x00000000#32))
          (broadcastTo S10000x128 (shapeCast S1x128 b shapeCasts_S1x128_S1x128) broadcasts_S1x128_S10000x128))
        (broadcast S10000x128 (Scalar.ofBits (F := Ideal) .f32 0x00000000#32))
      = reluAddRow (rowsTimes x w) b := by
  rw [shapeCast_self, shapeCast_self]
  funext j
  obtain ⟨p, q, rfl⟩ : ∃ (p : Fin 10000) (q : Fin 128), j = ix2 p q := ⟨j 0, j 1, eq_ix2 j⟩
  show max (FloatOps.matmul dot_S10000x128_S128x128_S10000x128_1_0_0_1_n_n none x
          (truncf .bf16 w bitsLt_bf16_f32) (constant S10000x128 .f32 0x00000000#32) (ix2 p q)
        + broadcastTo S10000x128 b broadcasts_S1x128_S10000x128 (ix2 p q)) (Ideal.ofBits .f32 0x00000000#32)
      = max ((∑ k : Fin 128, x (ix2 p k) * w (ix2 k q)) + b (ix2 (0 : Fin 1) q)) (Ideal.ofBits .f32 0x00000000#32)
  rw [broadcastTo_1b_ab_apply b broadcasts_S1x128_S10000x128 p q,
    matmul_zero_apply dot_S10000x128_S128x128_S10000x128_1_0_0_1_n_n rfl rfl rfl rfl rfl rfl rfl rfl none x
      (truncf .bf16 w bitsLt_bf16_f32) p q]
  rfl

/-- THE BODY'S PAYLOAD is the perceptron of its five loaded blocks: two dense layers and the one repeated clamp. -/
theorem payload_eq (x0 : Vec Ideal S10000x128 .f32) (x1 : Vec Ideal S128x128 .f32) (x2 : Vec Ideal S1x128 .f32)
    (x3 : Vec Ideal S128x128 .f32) (x4 : Vec Ideal S1x128 .f32) :
    Gen.k0_pay1 (F := Ideal) x0 x1 x2 x3 x4 = Cert.Gin.mlp x0 x1 x2 x3 x4 := by
  unfold Gen.k0_pay1
  dsimp only
  rw [layer_eq, layer_eq, shapeCast_self]
  rfl

/-! ## What a point writes back -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the feature block and the result block of point `t` are both block
    `(t, 0)`; the weights and the bias rows are block `(0, 0)` at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block of point `t` at `(p, q)` is the feature matrix at row `10000·t + p`, column `q`. -/
theorem rows_block (c : Dev nD) (t : Fin cfg0.N) (p : Fin 10000) (q : Fin 128) (r : Fin 100000)
    (hr : r.val = 10000 * t.val + p.val) :
    (iblk0 V c 0 t : Vec Ideal S10000x128 .f32) (ix2 p q) = (V c main_v14 : S100000x128.Idx → EReal) (ix2 r q) := by
  obtain ⟨e0, e1, -⟩ := index_facts t
  unfold iblk0
  rw [View.read_apply]
  show V c main_v14 _ = V c main_v14 _
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * q.val = q.val; omega

/-- The first weight matrix is handed over whole at every point. -/
theorem weights1_block (c : Dev nD) (t : Fin cfg0.N) :
    (iblk0 V c 1 t : Vec Ideal S128x128 .f32) = (V c main_v16 : S128x128.Idx → EReal) := by
  obtain ⟨-, -, e0, e1, -⟩ := index_facts t
  funext y
  unfold iblk0
  rw [View.read_apply]
  show V c main_v16 _ = V c main_v16 _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias row is handed over whole at every point. -/
theorem bias1_block (c : Dev nD) (t : Fin cfg0.N) :
    (iblk0 V c 2 t : Vec Ideal S1x128 .f32) = (V c main_v23 : S1x128.Idx → EReal) := by
  obtain ⟨-, -, -, -, e0, e1, -⟩ := index_facts t
  funext y
  unfold iblk0
  rw [View.read_apply]
  show V c main_v23 _ = V c main_v23 _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix is handed over whole at every point. -/
theorem weights2_block (c : Dev nD) (t : Fin cfg0.N) :
    (iblk0 V c 3 t : Vec Ideal S128x128 .f32) = (V c main_v20 : S128x128.Idx → EReal) := by
  obtain ⟨-, -, -, -, -, -, e0, e1, -⟩ := index_facts t
  funext y
  unfold iblk0
  rw [View.read_apply]
  show V c main_v20 _ = V c main_v20 _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row is handed over whole at every point. -/
theorem bias2_block (c : Dev nD) (t : Fin cfg0.N) :
    (iblk0 V c 4 t : Vec Ideal S1x128 .f32) = (V c main_v24 : S1x128.Idx → EReal) := by
  obtain ⟨-, -, -, -, -, -, -, -, e0, e1, -⟩ := index_facts t
  funext y
  unfold iblk0
  rw [View.read_apply]
  show V c main_v24 _ = V c main_v24 _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT `t` WRITES BACK is block `t` of the perceptron of the whole feature matrix: the body computes the perceptron
    of the feature block, and row `p` of that is row `10000·t + p` of the perceptron of the whole matrix. -/
theorem flushed_eq (c : Dev nD) (t : Fin cfg0.N) :
    (dat0 V c).flushed 5 t = ((cfg0.win 5).blk t).view.read (Elt Ideal)
      (Cert.Gin.mlp (V c main_v14) (V c main_v16) (V c main_v23) (V c main_v20) (V c main_v24)) := by
  show (cfg0.win 5).cut (grid0.coords t) ((dat0 V c).after 5 t) = _
  rw [after0_5]
  unfold out0_5
  rw [View.canon_unit_zero origin]
  simp only [View.ld_unit_zero (S := S10000x128) origin, View.ld_unit_zero (S := S128x128) origin,
    View.ld_unit_zero (S := S1x128) origin]
  rw [payload_eq, weights1_block, bias1_block, weights2_block, bias2_block]
  obtain ⟨-, -, -, -, -, -, -, -, -, -, e0, e1⟩ := index_facts t
  have hN : grid0.N = 10 := N_0
  have ht : t.val < 10 := by have h : t.val < grid0.N := t.isLt; omega
  funext j
  obtain ⟨p, q, rfl⟩ : ∃ (p : Fin 10000) (q : Fin 128), j = ix2 p q := ⟨j 0, j 1, eq_ix2 j⟩
  rw [View.read_apply]
  have hemb : ((cfg0.win 5).blk t).view.emb (ix2 p q)
      = (ix2 (⟨10000 * t.val + p.val, by have := p.isLt; omega⟩ : Fin 100000) q : S100000x128.Idx) := by
    funext a; apply Fin.ext
    match a with
    | ⟨0, _⟩ => show win0_5.index t (0 : Fin 2) * 10000 + 1 * p.val = 10000 * t.val + p.val; omega
    | ⟨1, _⟩ => show win0_5.index t (1 : Fin 2) * 128 + 1 * q.val = q.val; omega
  rw [hemb]
  exact Cert.Gin.mlp_rows _ _ _ _ _ _ p _ (fun k => rows_block V c t p k _ rfl) q

/-! ## From the blocks to the array -/

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v25).slice (win0_5.rect t)).set ↔ _
  rw [View.set_slice_whole, Rect.mem_set_unit]
  exact Iff.rfl

/-- The ten row blocks tile the result: row `r` is in the block of point `r / 10000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 := ⟨⟨(i 0).val / 10000, by show _ < grid0.N; omega⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- THE REGION'S RESULT: after the ten points the result array is the perceptron of the feature matrix the region was
    entered with, under the weights and bias rows it was entered with. -/
theorem region_value (V : (c : Dev nD) → (b : Ref sig .tc) → Buf (Elt Ideal) ((c : Thread nD τ).loc b)) (c : Dev nD) :
    (Gen.dat0 (F := Ideal) V c).arrAt 5 cfg0.N
      = Cert.Gin.mlp (V c main_v14) (V c main_v16) (V c main_v23) (V c main_v20) (V c main_v24) :=
  (Gen.dat0 V c).arrAt_eq_of_cover 5 _ (fun t _ => flushed_eq V c t) cover

end Cert.KernelIdeal.MlpRegion0

end
-- ==== Proof.MlpRegion1.lean ====
/-
  The second perceptron region of the network, read as one function of the arrays it is entered with.

  The region walks a grid of 10 points. At point `t` it is handed rows `10000·t … 10000·t + 9999` of the `[100000, 128]`
  feature matrix, the two `[128, 128]` weight matrices and the two `[1, 128]` bias rows whole, and it writes back the same
  rows of the `[100000, 128]` result. What it writes is the two-layer perceptron of the block it was handed: a change of
  float format is the identity over the extended reals, a matrix product into a zero accumulator is the plain sum of
  products, a `[1, 128]` row broadcast over the rows reads the row at the column, and the maximum with a broadcast zero is
  the clamp. Row `r` of the perceptron depends on row `r` of the matrix only, so block `t` of the perceptron of the whole
  matrix is the perceptron of block `t`; the ten blocks tile the result, so the result array IS the perceptron of the whole
  matrix. Nothing here uses finiteness of the entries.
-/
import proofs.«128393_j13718125543797_1_alg».proof.Proof.Gen.KernelIdeal.Frame
import proofs.«128393_j13718125543797_1_alg».proof.Proof.GinLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpRegion1

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowsTimes Cert.RowBias

/-! ## One dense layer of the body: product, bias row, clamp -/

/-- A block of rows (already in the product's operand format) times a weight matrix into the zero accumulator, plus the
    bias row broadcast over the rows, clamped at zero from below: entry `(p, q)` is
    `max (∑ k, x (p, k) · w (k, q) + b (0, q)) 0`. -/
theorem layer_eq (x : FVec Ideal S10000x128 .bf16) (w : FVec Ideal S128x128 .f32) (b : FVec Ideal S1x128 .f32) :
    maximumf (addf (matmul dot_S10000x128_S128x128_S10000x128_1_0_0_1_n_n none x
            (truncf .bf16 (shapeCast S128x128 w shapeCasts_S128x128_S128x128) bitsLt_bf16_f32)
            (constant S10000x128 .f32 0x00000000#32))
          (broadcastTo S10000x128 (shapeCast S1x128 b shapeCasts_S1x128_S1x128) broadcasts_S1x128_S10000x128))
        (broadcast S10000x128 (Scalar.ofBits (F := Ideal) .f32 0x00000000#32))
      = reluAddRow (rowsTimes x w) b := by
  rw [shapeCast_self, shapeCast_self]
  funext j
  obtain ⟨p, q, rfl⟩ : ∃ (p : Fin 10000) (q : Fin 128), j = ix2 p q := ⟨j 0, j 1, eq_ix2 j⟩
  show max (FloatOps.matmul dot_S10000x128_S128x128_S10000x128_1_0_0_1_n_n none x
          (truncf .bf16 w bitsLt_bf16_f32) (constant S10000x128 .f32 0x00000000#32) (ix2 p q)
        + broadcastTo S10000x128 b broadcasts_S1x128_S10000x128 (ix2 p q)) (Ideal.ofBits .f32 0x00000000#32)
      = max ((∑ k : Fin 128, x (ix2 p k) * w (ix2 k q)) + b (ix2 (0 : Fin 1) q)) (Ideal.ofBits .f32 0x00000000#32)
  rw [broadcastTo_1b_ab_apply b broadcasts_S1x128_S10000x128 p q,
    matmul_zero_apply dot_S10000x128_S128x128_S10000x128_1_0_0_1_n_n rfl rfl rfl rfl rfl rfl rfl rfl none x
      (truncf .bf16 w bitsLt_bf16_f32) p q]
  rfl

/-- THE BODY'S PAYLOAD is the perceptron of its five loaded blocks: two dense layers and the one repeated clamp. -/
theorem payload_eq (x0 : Vec Ideal S10000x128 .f32) (x1 : Vec Ideal S128x128 .f32) (x2 : Vec Ideal S1x128 .f32)
    (x3 : Vec Ideal S128x128 .f32) (x4 : Vec Ideal S1x128 .f32) :
    Gen.k1_pay1 (F := Ideal) x0 x1 x2 x3 x4 = Cert.Gin.mlp x0 x1 x2 x3 x4 := by
  unfold Gen.k1_pay1
  dsimp only
  rw [layer_eq, layer_eq, shapeCast_self]
  rfl

/-! ## What a point writes back -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the feature block and the result block of point `t` are both block
    `(t, 0)`; the weights and the bias rows are block `(0, 0)` at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block of point `t` at `(p, q)` is the feature matrix at row `10000·t + p`, column `q`. -/
theorem rows_block (c : Dev nD) (t : Fin cfg1.N) (p : Fin 10000) (q : Fin 128) (r : Fin 100000)
    (hr : r.val = 10000 * t.val + p.val) :
    (iblk1 V c 0 t : Vec Ideal S10000x128 .f32) (ix2 p q) = (V c main_v36 : S100000x128.Idx → EReal) (ix2 r q) := by
  obtain ⟨e0, e1, -⟩ := index_facts t
  unfold iblk1
  rw [View.read_apply]
  show V c main_v36 _ = V c main_v36 _
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * q.val = q.val; omega

/-- The first weight matrix is handed over whole at every point. -/
theorem weights1_block (c : Dev nD) (t : Fin cfg1.N) :
    (iblk1 V c 1 t : Vec Ideal S128x128 .f32) = (V c main_v38 : S128x128.Idx → EReal) := by
  obtain ⟨-, -, e0, e1, -⟩ := index_facts t
  funext y
  unfold iblk1
  rw [View.read_apply]
  show V c main_v38 _ = V c main_v38 _
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias row is handed over whole at every point. -/
theorem bias1_block (c : Dev nD) (t : Fin cfg1.N) :
    (iblk1 V c 2 t : Vec Ideal S1x128 .f32) = (V c main_v45 : S1x128.Idx → EReal) := by
  obtain ⟨-, -, -, -, e0, e1, -⟩ := index_facts t
  funext y
  unfold iblk1
  rw [View.read_apply]
  show V c main_v45 _ = V c main_v45 _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weight matrix is handed over whole at every point. -/
theorem weights2_block (c : Dev nD) (t : Fin cfg1.N) :
    (iblk1 V c 3 t : Vec Ideal S128x128 .f32) = (V c main_v42 : S128x128.Idx → EReal) := by
  obtain ⟨-, -, -, -, -, -, e0, e1, -⟩ := index_facts t
  funext y
  unfold iblk1
  rw [View.read_apply]
  show V c main_v42 _ = V c main_v42 _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias row is handed over whole at every point. -/
theorem bias2_block (c : Dev nD) (t : Fin cfg1.N) :
    (iblk1 V c 4 t : Vec Ideal S1x128 .f32) = (V c main_v46 : S1x128.Idx → EReal) := by
  obtain ⟨-, -, -, -, -, -, -, -, e0, e1, -⟩ := index_facts t
  funext y
  unfold iblk1
  rw [View.read_apply]
  show V c main_v46 _ = V c main_v46 _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- WHAT POINT `t` WRITES BACK is block `t` of the perceptron of the whole feature matrix: the body computes the perceptron
    of the feature block, and row `p` of that is row `10000·t + p` of the perceptron of the whole matrix. -/
theorem flushed_eq (c : Dev nD) (t : Fin cfg1.N) :
    (dat1 V c).flushed 5 t = ((cfg1.win 5).blk t).view.read (Elt Ideal)
      (Cert.Gin.mlp (V c main_v36) (V c main_v38) (V c main_v45) (V c main_v42) (V c main_v46)) := by
  show (cfg1.win 5).cut (grid1.coords t) ((dat1 V c).after 5 t) = _
  rw [after1_5]
  unfold out1_5
  rw [View.canon_unit_zero origin]
  simp only [View.ld_unit_zero (S := S10000x128) origin, View.ld_unit_zero (S := S128x128) origin,
    View.ld_unit_zero (S := S1x128) origin]
  rw [payload_eq, weights1_block, bias1_block, weights2_block, bias2_block]
  obtain ⟨-, -, -, -, -, -, -, -, -, -, e0, e1⟩ := index_facts t
  have hN : grid1.N = 10 := N_1
  have ht : t.val < 10 := by have h : t.val < grid1.N := t.isLt; omega
  funext j
  obtain ⟨p, q, rfl⟩ : ∃ (p : Fin 10000) (q : Fin 128), j = ix2 p q := ⟨j 0, j 1, eq_ix2 j⟩
  rw [View.read_apply]
  have hemb : ((cfg1.win 5).blk t).view.emb (ix2 p q)
      = (ix2 (⟨10000 * t.val + p.val, by have := p.isLt; omega⟩ : Fin 100000) q : S100000x128.Idx) := by
    funext a; apply Fin.ext
    match a with
    | ⟨0, _⟩ => show win1_5.index t (0 : Fin 2) * 10000 + 1 * p.val = 10000 * t.val + p.val; omega
    | ⟨1, _⟩ => show win1_5.index t (1 : Fin 2) * 128 + 1 * q.val = q.val; omega
  rw [hemb]
  exact Cert.Gin.mlp_rows _ _ _ _ _ _ p _ (fun k => rows_block V c t p k _ rfl) q

/-! ## From the blocks to the array -/

/-- An index of the result array is in point `t`'s block iff each coordinate is in the block's range on its axis. -/
theorem mem_block (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v47).slice (win1_5.rect t)).set ↔ _
  rw [View.set_slice_whole, Rect.mem_set_unit]
  exact Iff.rfl

/-- The ten row blocks tile the result: row `r` is in the block of point `r / 10000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- THE REGION'S RESULT: after the ten points the result array is the perceptron of the feature matrix the region was
    entered with, under the weights and bias rows it was entered with. -/
theorem region_value (V : (c : Dev nD) → (b : Ref sig .tc) → Buf (Elt Ideal) ((c : Thread nD τ).loc b)) (c : Dev nD) :
    (Gen.dat1 (F := Ideal) V c).arrAt 5 cfg1.N
      = Cert.Gin.mlp (V c main_v36) (V c main_v38) (V c main_v45) (V c main_v42) (V c main_v46) :=
  (Gen.dat1 V c).arrAt_eq_of_cover 5 _ (fun t _ => flushed_eq V c t) cover

end Cert.KernelIdeal.MlpRegion1

end
-- ==== Proof.MlpRegion2.lean ====
/-
  The third perceptron region of the network, read as one function of the arrays it is entered with.

  The region walks a grid of 10 points. At point `t` it is handed rows `10000·t … 10000·t + 9999` of the `[100000, 128]`
  feature matrix, the two `[128, 128]` weight matrices and the two `[1, 128]` bias rows whole, and it writes back the same
  rows of the `[100000, 128]` result. What it writes is the two-layer perceptron of the block it was handed: a change of
  float format is the identity over the extended reals, a matrix product into a zero accumulator is the plain sum of
  products, a `[1, 128]` row broadcast over the rows reads the row at the column, and the maximum with a broadcast zero is
  the clamp. Row `r` of the perceptron depends on row `r` of the matrix only, so block `t` of the perceptron of the whole
  matrix is the perceptron of block `t`; the ten blocks tile the result, so the result array IS the perceptron of the whole
  matrix. Nothing here uses finiteness of the entries.
-/
import proofs.«128393_j13718125543797_1_alg».proof.Proof.Gen.KernelIdeal.Frame
import proofs.«128393_j13718125543797_1_alg».proof.Proof.GinLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpRegion2

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowsTimes Cert.RowBias

/-! ## One dense layer of the body: product, bias row, clamp -/

/-- A block of rows (already in the product's operand format) times a weight matrix into the zero accumulator, plus the
    bias row broadcast over the rows, clamped at zero from below: entry `(p, q)` is
    `max (∑ k, x (p, k) · w (k, q) + b (0, q)) 0`. -/
theorem layer_eq (x : FVec Ideal S10000x128 .bf16) (w : FVec Ideal S128x128 .f32) (b : FVec Ideal S1x128 .f32) :
    maximumf (addf (matmul dot_S10000x128_S128x128_S10000x128_1_0_0_1_n_n none x
            (truncf .bf16 (shapeCast S128x128 w shapeCasts_S128x128_S128x128) bitsLt_bf16_f32)
            (constant S10000x128 .f32 0x00000000#32))
          (broadcastTo S10000x128 (shapeCast S1x128 b shapeCasts_S1x128_S1x128) broadcasts_S1x128_S10000x128))
        (broadcast S10000x128 (Scalar.ofBits (F := Ideal) .f32 0x00000000#32))
      = reluAddRow (rowsTimes x w) b := by
  rw [shapeCast_self, shapeCast_self]
  funext j
  obtain ⟨p, q, rfl⟩ : ∃ (p : Fin 10000) (q : Fin 128), j = ix2 p q := ⟨j 0, j 1, eq_ix2 j⟩
  show max (FloatOps.matmul dot_S10000x128_S128x128_S10000x128_1_0_0_1_n_n none x
          (truncf .bf16 w bitsLt_bf16_f32) (constant S10000x128 .f32 0x00000000#32) (ix2 p q)
        + broadcastTo S10000x128 b broadcasts_S1x128_S10000x128 (ix2 p q)) (Ideal.ofBits .f32 0x00000000#32)
      = max ((∑ k : Fin 128, x (ix2 p k) * w (ix2 k q)) + b (ix2 (0 : Fin 1) q)) (Ideal.ofBits .f32 0x00000000#32)
  rw [broadcastTo_1b_ab_apply b broadcasts_S1x128_S10000x128 p q,
    matmul_zero_apply dot_S10000x128_S128x128_S10000x128_1_0_0_1_n_n rfl rfl rfl rfl rfl rfl rfl rfl none x
      (truncf .bf16 w bitsLt_bf16_f32) p q]
  rfl

/-- THE BODY'S PAYLOAD is the perceptron of its five loaded blocks: two dense layers and the one repeated clamp. -/
theorem payload_eq (x0 : Vec Ideal S10000x128 .f32) (x1 : Vec Ideal S128x128 .f32) (x2 : Vec Ideal S1x128 .f32)
    (x3 : Vec Ideal S128x128 .f32) (x4 : Vec Ideal S1x128 .f32) :
    Gen.k2_pay1 (F := Ideal) x0 x1 x2 x3 x4 = Cert.Gin.mlp x0 x1 x2 x3 x4 := by
  unfold Gen.k2_pay1
  dsimp only
  rw [layer_eq, layer_eq, shapeCast_self]
  rfl

/-! ## What a point writes back -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the feature block and the result block of point `t` are both block
    `(t, 0)`; the weights and the bias rows are block `(0, 0)` at every point. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The feature block of point `t` at `(p, q)` is the feature matrix at row `10000·t + p`, column `q`. -/
theorem rows_block (c : Dev nD) (t : Fin cfg2.N) (p : Fin 10000) (q : Fin 128) (r : Fin 100000)
    (hr : r.val = 10000 * t.val + p.val) :
    (iblk2 V c 0 t : Vec Ideal S10000x128 .f32) (ix2 p q) = (V c main_v58 : S100000x128.Idx → EReal) (ix2 r q) := by
  obtain ⟨e0, e1, -⟩ := index_facts t
  unfold iblk2
  rw [View.read_apply]
  show V c main_v58 _ = V c main_v58 _
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * q.val = q.val; omega

/-- The first weight matrix is handed over whole at every point. -/
theorem weights1_block (c : Dev nD) (t : Fin cfg2.N) :
    (iblk2 V c 1 t : Vec Ideal S128x128 .f32) = (V c main_v60 : S128x128.Idx → EReal) := by
  obtain ⟨-, -, e0, e1, -⟩ := index_facts t
  funext y
  unfold iblk2
  rw [View.read_apply]
  show V c main_v60 _ = V c main_v60 _
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias row is handed over whole at every point. -/
theorem bias1_block (c : Dev nD) (t : Fin cfg2.N) :
    (iblk2 V c 2 t : Vec Ideal S1x128 .f32) = (V c main_v67 : S1x128.Idx → EReal) := by
  obtain ⟨-, -, -, -, e0, e1, -⟩ := index_facts t
  funext y
  unfold iblk2
  rw [View.read_apply]
  show V c main_v67 _ = V c main_v67 _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The second weight matrix is handed over whole at every point. -/
theorem weights2_block (c : Dev nD) (t : Fin cfg2.N) :
    (iblk2 V c 3 t : Vec Ideal S128x128 .f32) = (V c main_v64 : S128x128.Idx → EReal) := by
  obtain ⟨-, -, -, -, -, -, e0, e1, -⟩ := index_facts t
  funext y
  unfold iblk2
  rw [View.read_apply]
  show V c main_v64 _ = V c main_v64 _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias row is handed over whole at every point. -/
theorem bias2_block (c : Dev nD) (t : Fin cfg2.N) :
    (iblk2 V c 4 t : Vec Ideal S1x128 .f32) = (V c main_v68 : S1x128.Idx → EReal) := by
  obtain ⟨-, -, -, -, -, -, -, -, e0, e1, -⟩ := index_facts t
  funext y
  unfold iblk2
  rw [View.read_apply]
  show V c main_v68 _ = V c main_v68 _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- WHAT POINT `t` WRITES BACK is block `t` of the perceptron of the whole feature matrix: the body computes the perceptron
    of the feature block, and row `p` of that is row `10000·t + p` of the perceptron of the whole matrix. -/
theorem flushed_eq (c : Dev nD) (t : Fin cfg2.N) :
    (dat2 V c).flushed 5 t = ((cfg2.win 5).blk t).view.read (Elt Ideal)
      (Cert.Gin.mlp (V c main_v58) (V c main_v60) (V c main_v67) (V c main_v64) (V c main_v68)) := by
  show (cfg2.win 5).cut (grid2.coords t) ((dat2 V c).after 5 t) = _
  rw [after2_5]
  unfold out2_5
  rw [View.canon_unit_zero origin]
  simp only [View.ld_unit_zero (S := S10000x128) origin, View.ld_unit_zero (S := S128x128) origin,
    View.ld_unit_zero (S := S1x128) origin]
  rw [payload_eq, weights1_block, bias1_block, weights2_block, bias2_block]
  obtain ⟨-, -, -, -, -, -, -, -, -, -, e0, e1⟩ := index_facts t
  have hN : grid2.N = 10 := N_2
  have ht : t.val < 10 := by have h : t.val < grid2.N := t.isLt; omega
  funext j
  obtain ⟨p, q, rfl⟩ : ∃ (p : Fin 10000) (q : Fin 128), j = ix2 p q := ⟨j 0, j 1, eq_ix2 j⟩
  rw [View.read_apply]
  have hemb : ((cfg2.win 5).blk t).view.emb (ix2 p q)
      = (ix2 (⟨10000 * t.val + p.val, by have := p.isLt; omega⟩ : Fin 100000) q : S100000x128.Idx) := by
    funext a; apply Fin.ext
    match a with
    | ⟨0, _⟩ => show win2_5.index t (0 : Fin 2) * 10000 + 1 * p.val = 10000 * t.val + p.val; omega
    | ⟨1, _⟩ => show win2_5.index t (1 : Fin 2) * 128 + 1 * q.val = q.val; omega
  rw [hemb]
  exact Cert.Gin.mlp_rows _ _ _ _ _ _ p _ (fun k => rows_block V c t p k _ rfl) q

/-! ## From the blocks to the array -/

/-- An index of the result array is in point `t`'s block iff each coordinate is in the block's range on its axis. -/
theorem mem_block (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v69).slice (win2_5.rect t)).set ↔ _
  rw [View.set_slice_whole, Rect.mem_set_unit]
  exact Iff.rfl

/-- The ten row blocks tile the result: row `r` is in the block of point `r / 10000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 := ⟨⟨(i 0).val / 10000, by show _ < grid2.N; omega⟩, rfl⟩
  obtain ⟨-, -, -, -, -, -, -, -, -, -, e0, e1⟩ := index_facts t
  refine ⟨t, flush2_5 t, ?_⟩
  rw [mem_block]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 128 ≤ (i 1).val ∧ (i 1).val < win2_5.index t (1 : Fin 2) * 128 + 128
    omega

/-- THE REGION'S RESULT: after the ten points the result array is the perceptron of the feature matrix the region was
    entered with, under the weights and bias rows it was entered with. -/
theorem region_value (V : (c : Dev nD) → (b : Ref sig .tc) → Buf (Elt Ideal) ((c : Thread nD τ).loc b)) (c : Dev nD) :
    (Gen.dat2 (F := Ideal) V c).arrAt 5 cfg2.N
      = Cert.Gin.mlp (V c main_v58) (V c main_v60) (V c main_v67) (V c main_v64) (V c main_v68) :=
  (Gen.dat2 V c).arrAt_eq_of_cover 5 _ (fun t _ => flushed_eq V c t) cover

end Cert.KernelIdeal.MlpRegion2

end
-- ==== Proof.HeadRegion.lean ====
/-
  The value of the output-heads kernel region: after it, each of its two result arrays holds `head` of the pooled
  features, that head's weight matrix and that head's bias row, as the region finds them.

  The region's grid has ONE point and every window's block is its whole array (the index maps are constantly `(0, 0)`), so
  the body runs once on whole arrays: it rounds the `[1000, 128]` features and a `[128, 64]` weight matrix to bf16 (the
  identity over the extended reals), multiplies them into a zero accumulator, and adds the `[1, 64]` bias row spread over
  the 1000 rows — at entry `(r, c)` the sum over `k` of `g (r, k) · W (k, c)`, plus `b (0, c)`, which is
  `Cert.Gin.head g W b` (`mu_payload`, `lv_payload`). Each loaded block is its array (`feat_block` … `blv_block`: block
  entry `y` sits at `0 · size + y` on each axis), the stored block is the result's whole array (`mu_whole_block`,
  `lv_whole_block`), so what the point writes back is `head` of the arrays read through the block (`mu_flushed`,
  `lv_flushed`); the block covers every index of the array (`mu_cover`, `lv_cover`), so the array ends holding `head` of
  the arrays (`mu_value`, `lv_value`). The buffer contents `V` at the region's entry are arbitrary throughout; nothing
  here uses finiteness of an entry.
-/
import proofs.«128393_j13718125543797_1_alg».proof.Proof.Gen.KernelIdeal.Frame
import proofs.«128393_j13718125543797_1_alg».proof.Proof.GinLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadRegion

open Cert.KernelIdeal Cert.KernelIdeal.Gen Idealize.ShloMosaic Idealize.ShloMosaic.TcCoe Idealize.SL.Sem
open Idealize.ShloMosaic.ValueIdx Idealize.ShloMosaic.RowsTimes
open Idealize.ShloMosaic.Pipeline (Dat)

/-! ## The body's two results, as functions of the blocks it loads -/

/-- The first head's payload: the features rounded to bf16 (the identity over the extended reals) times the weights into
    a zero accumulator, plus the bias row spread over the rows, is `head` of the three loaded blocks. -/
theorem mu_payload (x0 : Vec Ideal S1000x128 .f32) (x1 : Vec Ideal S128x64 .f32) (x2 : Vec Ideal S1x64 .f32) :
    Gen.k3_pay2 (F := Ideal) x0 x1 x2 = Cert.Gin.head x0 x1 x2 := by
  funext j
  obtain ⟨p, q, rfl⟩ : ∃ (p : Fin 1000) (q : Fin 64), j = ix2 p q := ⟨j 0, j 1, eq_ix2 j⟩
  rw [Cert.Gin.head_apply]
  unfold Gen.k3_pay2 Gen.k3_pay1
  simp only [shapeCast_self]
  show _ + _ = _ + _
  refine congrArg₂ (· + ·) ?_ ?_
  · exact RowsTimes.matmul_zero_apply dot_S1000x128_S128x64_S1000x64_1_0_0_1_n_n rfl rfl rfl rfl rfl rfl rfl rfl none _ _ p q
  · exact broadcastTo_1b_ab_apply x2 broadcasts_S1x64_S1000x64 p q

/-- The second head's payload: the same expression of the features and the second weight matrix and bias row. -/
theorem lv_payload (x0 : Vec Ideal S1000x128 .f32) (x1 : Vec Ideal S128x64 .f32) (x2 : Vec Ideal S1x64 .f32) :
    Gen.k3_pay3 (F := Ideal) x0 x1 x2 = Cert.Gin.head x0 x1 x2 := by
  funext j
  obtain ⟨p, q, rfl⟩ : ∃ (p : Fin 1000) (q : Fin 64), j = ix2 p q := ⟨j 0, j 1, eq_ix2 j⟩
  rw [Cert.Gin.head_apply]
  unfold Gen.k3_pay3 Gen.k3_pay1
  simp only [shapeCast_self]
  show _ + _ = _ + _
  refine congrArg₂ (· + ·) ?_ ?_
  · exact RowsTimes.matmul_zero_apply dot_S1000x128_S128x64_S1000x64_1_0_0_1_n_n rfl rfl rfl rfl rfl rfl rfl rfl none _ _ p q
  · exact broadcastTo_1b_ab_apply x2 broadcasts_S1x64_S1000x64 p q

variable (V : (c : Dev nD) → (b : Ref sig .tc) → Buf (Elt Ideal) ((c : Thread nD τ).loc b))

/-! ## The one grid point's blocks are the whole arrays -/

theorem zero_offsets : (![0, 0] : Fin 2 → Nat) = fun _ => 0 := funext fun a => by fin_cases a <;> rfl

/-- The printed index maps, decided over the grid's one point: every window's block index is `(0, 0)`. -/
theorem index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The features' block is the features' whole array: entry `y` of the block sits at `0 · 1000 + y₀, 0 · 128 + y₁`. -/
theorem feat_block (c : Dev nD) (t : Fin cfg3.N) :
    Gen.iblk3 (F := Ideal) V c 0 t = (V c main_v72 : S1000x128.Idx → EReal) := by
  funext y
  show V c main_v72 (((cfg3.win 0).blk t).view.emb y) = V c main_v72 y
  refine congrArg (V c main_v72) ?_
  obtain ⟨e0, e1, -⟩ := index_facts t
  funext a; apply Fin.ext
  match a with
  | ⟨0, _⟩ => show win3_0.index t (0 : Fin 2) * 1000 + 1 * (y 0).val = (y 0).val; omega
  | ⟨1, _⟩ => show win3_0.index t (1 : Fin 2) * 128 + 1 * (y 1).val = (y 1).val; omega

/-- The first weight matrix's block is its whole array. -/
theorem wmu_block (c : Dev nD) (t : Fin cfg3.N) :
    Gen.iblk3 (F := Ideal) V c 1 t = (V c main_arg7 : S128x64.Idx → EReal) := by
  funext y
  show V c main_arg7 (((cfg3.win 1).blk t).view.emb y) = V c main_arg7 y
  refine congrArg (V c main_arg7) ?_
  obtain ⟨-, -, e0, e1, -⟩ := index_facts t
  funext a; apply Fin.ext
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- The first bias row's block is its whole array. -/
theorem bmu_block (c : Dev nD) (t : Fin cfg3.N) :
    Gen.iblk3 (F := Ideal) V c 2 t = (V c main_v73 : S1x64.Idx → EReal) := by
  funext y
  show V c main_v73 (((cfg3.win 2).blk t).view.emb y) = V c main_v73 y
  refine congrArg (V c main_v73) ?_
  obtain ⟨-, -, -, -, e0, e1, -⟩ := index_facts t
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The second weight matrix's block is its whole array. -/
theorem wlv_block (c : Dev nD) (t : Fin cfg3.N) :
    Gen.iblk3 (F := Ideal) V c 3 t = (V c main_arg9 : S128x64.Idx → EReal) := by
  funext y
  show V c main_arg9 (((cfg3.win 3).blk t).view.emb y) = V c main_arg9 y
  refine congrArg (V c main_arg9) ?_
  obtain ⟨-, -, -, -, -, -, e0, e1, -⟩ := index_facts t
  funext a; apply Fin.ext
  match a with
  | ⟨0, _⟩ => show win3_3.index t (0 : Fin 2) * 128 + 1 * (y 0).val = (y 0).val; omega
  | ⟨1, _⟩ => show win3_3.index t (1 : Fin 2) * 64 + 1 * (y 1).val = (y 1).val; omega

/-- The second bias row's block is its whole array. -/
theorem blv_block (c : Dev nD) (t : Fin cfg3.N) :
    Gen.iblk3 (F := Ideal) V c 4 t = (V c main_v74 : S1x64.Idx → EReal) := by
  funext y
  show V c main_v74 (((cfg3.win 4).blk t).view.emb y) = V c main_v74 y
  refine congrArg (V c main_v74) ?_
  obtain ⟨-, -, -, -, -, -, -, -, e0, e1, -⟩ := index_facts t
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block is its whole array too: a full-size result, cut to the block, is the array read through the block. -/
theorem mu_whole_block (G : S1000x64.Idx → EReal) (t : Fin cfg3.N) :
    (cfg3.win 5).cut (grid3.coords t) G = ((cfg3.win 5).blk t).view.read (Elt Ideal) G := by
  funext y
  show G y = G (((cfg3.win 5).blk t).view.emb y)
  refine congrArg G ?_
  obtain ⟨-, -, -, -, -, -, -, -, -, -, e0, e1, -⟩ := index_facts t
  funext a; apply Fin.ext
  match a with
  | ⟨0, _⟩ => show (y 0).val = win3_5.index t (0 : Fin 2) * 1000 + 1 * (y 0).val; omega
  | ⟨1, _⟩ => show (y 1).val = win3_5.index t (1 : Fin 2) * 64 + 1 * (y 1).val; omega

/-- Window 6's block is its whole array. -/
theorem lv_whole_block (G : S1000x64.Idx → EReal) (t : Fin cfg3.N) :
    (cfg3.win 6).cut (grid3.coords t) G = ((cfg3.win 6).blk t).view.read (Elt Ideal) G := by
  funext y
  show G y = G (((cfg3.win 6).blk t).view.emb y)
  refine congrArg G ?_
  obtain ⟨-, -, -, -, -, -, -, -, -, -, -, -, e0, e1⟩ := index_facts t
  funext a; apply Fin.ext
  match a with
  | ⟨0, _⟩ => show (y 0).val = win3_6.index t (0 : Fin 2) * 1000 + 1 * (y 0).val; omega
  | ⟨1, _⟩ => show (y 1).val = win3_6.index t (1 : Fin 2) * 64 + 1 * (y 1).val; omega

/-! ## What the point writes back -/

/-- The point writes back, to the first result's array, `head` of the features, the first weights and the first bias row
    as the region finds them, read through the block. -/
theorem mu_flushed (c : Dev nD) (t : Fin cfg3.N) :
    (Gen.dat3 (F := Ideal) V c).flushed 5 t
      = ((cfg3.win 5).blk t).view.read (Elt Ideal) (Cert.Gin.head (V c main_v72) (V c main_arg7) (V c main_v73)) := by
  show (cfg3.win 5).cut (grid3.coords t) ((Gen.dat3 V c).after 5 t) = _
  rw [Gen.after3_5]
  unfold Gen.out3_5
  rw [View.canon_unit_zero zero_offsets]
  simp only [View.ld_unit_zero (S := S1000x128) zero_offsets, View.ld_unit_zero (S := S128x64) zero_offsets,
    View.ld_unit_zero (S := S1x64) zero_offsets]
  rw [mu_payload, feat_block, wmu_block, bmu_block]
  exact mu_whole_block _ t

/-- The point writes back, to the second result's array, `head` of the features, the second weights and the second bias
    row as the region finds them, read through the block. -/
theorem lv_flushed (c : Dev nD) (t : Fin cfg3.N) :
    (Gen.dat3 (F := Ideal) V c).flushed 6 t
      = ((cfg3.win 6).blk t).view.read (Elt Ideal) (Cert.Gin.head (V c main_v72) (V c main_arg9) (V c main_v74)) := by
  show (cfg3.win 6).cut (grid3.coords t) ((Gen.dat3 V c).after 6 t) = _
  rw [Gen.after3_6]
  unfold Gen.out3_6
  rw [View.canon_unit_zero zero_offsets]
  simp only [View.ld_unit_zero (S := S1000x128) zero_offsets, View.ld_unit_zero (S := S128x64) zero_offsets,
    View.ld_unit_zero (S := S1x64) zero_offsets]
  rw [lv_payload, feat_block, wlv_block, blv_block]
  exact lv_whole_block _ t

/-! ## From the block to the array -/

/-- An index of the first result's array is in the point's block iff each coordinate is in the block's range on its axis. -/
theorem mu_mem_block (t : Fin cfg3.N) (i : S1000x64.Idx) :
    i ∈ ((cfg3.win 5).blk t).view.set ↔ ∀ a : Fin 2, win3_5.index t a * S1000x64.size a ≤ (i a).val
      ∧ (i a).val < win3_5.index t a * S1000x64.size a + S1000x64.size a := by
  show i ∈ ((View.whole main_v75_0).slice (win3_5.rect t)).set ↔ _
  rw [View.set_slice_whole, Rect.mem_set_unit]
  exact Iff.rfl

/-- The same for the second result's array. -/
theorem lv_mem_block (t : Fin cfg3.N) (i : S1000x64.Idx) :
    i ∈ ((cfg3.win 6).blk t).view.set ↔ ∀ a : Fin 2, win3_6.index t a * S1000x64.size a ≤ (i a).val
      ∧ (i a).val < win3_6.index t a * S1000x64.size a + S1000x64.size a := by
  show i ∈ ((View.whole main_v75_1).slice (win3_6.rect t)).set ↔ _
  rw [View.set_slice_whole, Rect.mem_set_unit]
  exact Iff.rfl

/-- Every index of the first result's array is in the one point's block, which starts at `(0, 0)` and is `1000 × 64`. -/
theorem mu_cover (i : S1000x64.Idx) :
    ∃ t : Fin cfg3.N, (cfg3.win 5).flush t = true ∧ i ∈ ((cfg3.win 5).blk t).view.set := by
  refine ⟨Gen.t3_0, Gen.flush3_5 _, ?_⟩
  rw [mu_mem_block]
  obtain ⟨-, -, -, -, -, -, -, -, -, -, e0, e1, -⟩ := index_facts Gen.t3_0
  have h0 : (i 0).val < 1000 := (i 0).isLt
  have h1 : (i 1).val < 64 := (i 1).isLt
  intro a
  match a with
  | ⟨0, _⟩ =>
    show win3_5.index Gen.t3_0 (0 : Fin 2) * 1000 ≤ (i 0).val ∧ (i 0).val < win3_5.index Gen.t3_0 (0 : Fin 2) * 1000 + 1000
    omega
  | ⟨1, _⟩ =>
    show win3_5.index Gen.t3_0 (1 : Fin 2) * 64 ≤ (i 1).val ∧ (i 1).val < win3_5.index Gen.t3_0 (1 : Fin 2) * 64 + 64
    omega

/-- Every index of the second result's array is in the one point's block. -/
theorem lv_cover (i : S1000x64.Idx) :
    ∃ t : Fin cfg3.N, (cfg3.win 6).flush t = true ∧ i ∈ ((cfg3.win 6).blk t).view.set := by
  refine ⟨Gen.t3_0, Gen.flush3_6 _, ?_⟩
  rw [lv_mem_block]
  obtain ⟨-, -, -, -, -, -, -, -, -, -, -, -, e0, e1⟩ := index_facts Gen.t3_0
  have h0 : (i 0).val < 1000 := (i 0).isLt
  have h1 : (i 1).val < 64 := (i 1).isLt
  intro a
  match a with
  | ⟨0, _⟩ =>
    show win3_6.index Gen.t3_0 (0 : Fin 2) * 1000 ≤ (i 0).val ∧ (i 0).val < win3_6.index Gen.t3_0 (0 : Fin 2) * 1000 + 1000
    omega
  | ⟨1, _⟩ =>
    show win3_6.index Gen.t3_0 (1 : Fin 2) * 64 ≤ (i 1).val ∧ (i 1).val < win3_6.index Gen.t3_0 (1 : Fin 2) * 64 + 64
    omega

/-- THE FIRST RESULT after the region: `head` of the pooled features, the first weight matrix and the first bias row, as
    the region finds them. -/
theorem mu_value (c : Dev nD) :
    (Gen.dat3 (F := Ideal) V c).arrAt 5 cfg3.N = Cert.Gin.head (V c main_v72) (V c main_arg7) (V c main_v73) :=
  (Gen.dat3 V c).arrAt_eq_of_cover 5 _ (fun t _ => mu_flushed V c t) mu_cover

/-- THE SECOND RESULT after the region: `head` of the pooled features, the second weight matrix and the second bias row. -/
theorem lv_value (c : Dev nD) :
    (Gen.dat3 (F := Ideal) V c).arrAt 6 cfg3.N = Cert.Gin.head (V c main_v72) (V c main_arg9) (V c main_v74) :=
  (Gen.dat3 V c).arrAt_eq_of_cover 6 _ (fun t _ => lv_flushed V c t) lv_cover

end Cert.KernelIdeal.HeadRegion

end
-- ==== Proof.RefNet.lean ====
/-
  The reference program's two results as the network function.

  The reference is a straight line of host operations. Read in order it is: three times [ the neighbour aggregation of
  the current node features (the feature matrix plus the accumulating scatter, by destination, of the rows gathered by
  source), then the perceptron of every row (two matrix products, each followed by a bias row spread over the rows and a
  clamp at zero, then one more clamp) with slice k of the stacked parameters ], then the per-graph sum of the node rows,
  then two linear heads. Each stage below is identified with the corresponding piece of the network function: the
  aggregation and the pooling by unfolding alone (the gather and the scatter are never opened: both sides apply the same
  ones to the same operands), a matrix product as the sum-of-products function, a broadcast bias add as the row add. No
  step uses finiteness of the entries.
-/
import proofs.«128393_j13718125543797_1_alg».proof.Proof.Gen.ReferenceIdeal.Read
import proofs.«128393_j13718125543797_1_alg».proof.Proof.GinNet

noncomputable section

namespace Cert.RefNet

open Idealize.ShloMosaic Idealize.ShloMosaic.RowsTimes Cert.RowBias Cert.ReferenceIdeal Cert.ReferenceIdeal.Read
open Cert.ReferenceIdeal.Facts₀ Cert.ReferenceIdeal.Facts

variable [Cert.KernelIdeal.Facts] [Cert.ReferenceIdeal.Facts]

/-! ## The dimension records of the two programs agree -/

/-- The gather's dimension numbers are printed alike in the two programs. -/
theorem gather_eq :
    Cert.ReferenceIdeal.gather_S100000x128_S1600000x1_S1600000x128_1_0_n_n_0_1_1128
      = Cert.KernelIdeal.gather_S100000x128_S1600000x1_S1600000x128_1_0_n_n_0_1_1128 := rfl

/-- So are those of the scatter into the node rows. -/
theorem scatter_nodes_eq :
    Cert.ReferenceIdeal.scatter_S100000x128_S1600000x1_S1600000x128_1_0_0_1
      = Cert.KernelIdeal.scatter_S100000x128_S1600000x1_S1600000x128_1_0_0_1 := rfl

/-- And those of the scatter into the graph rows. -/
theorem scatter_graphs_eq :
    Cert.ReferenceIdeal.scatter_S1000x128_S100000x1_S100000x128_1_0_0_1
      = Cert.KernelIdeal.scatter_S1000x128_S100000x1_S100000x128_1_0_0_1 := rfl

section Stages

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S3x128x128, .f32⟩ : BufTy).Contents (Elt Ideal))
  (x6 : (⟨S3x128, .f32⟩ : BufTy).Contents (Elt Ideal))

/-! ## The edge columns -/

theorem srcCol_0 : val_main_v9 (F := Ideal) x1 = Cert.Gin.srcCol x1 := rfl
theorem srcCol_1 : val_main_v39 (F := Ideal) x1 = Cert.Gin.srcCol x1 := rfl
theorem srcCol_2 : val_main_v69 (F := Ideal) x1 = Cert.Gin.srcCol x1 := rfl
theorem dstCol_0 : val_main_v12 (F := Ideal) x1 = Cert.Gin.dstCol x1 := rfl
theorem dstCol_1 : val_main_v42 (F := Ideal) x1 = Cert.Gin.dstCol x1 := rfl
theorem dstCol_2 : val_main_v72 (F := Ideal) x1 = Cert.Gin.dstCol x1 := rfl

/-! ## The aggregation and the pooling, by unfolding -/

/-- Layer 0's aggregate is the neighbour aggregation of the input features. -/
theorem agg_0 : val_main_v14 (F := Ideal) x0 x1 = Cert.Gin.agg x0 x1 := rfl

/-- Layer 1's aggregate is the neighbour aggregation of layer 0's result. -/
theorem agg_1 : val_main_v44 (F := Ideal) x0 x1 x3 x4 x5 x6
    = Cert.Gin.agg (val_main_v33 (F := Ideal) x0 x1 x3 x4 x5 x6) x1 := rfl

/-- Layer 2's aggregate is the neighbour aggregation of layer 1's result. -/
theorem agg_2 : val_main_v74 (F := Ideal) x0 x1 x3 x4 x5 x6
    = Cert.Gin.agg (val_main_v63 (F := Ideal) x0 x1 x3 x4 x5 x6) x1 := rfl

/-- The per-graph sum of the last layer's rows is the pooling. -/
theorem pool_eq : val_main_v96 (F := Ideal) x0 x1 x2 x3 x4 x5 x6
    = Cert.Gin.pool (val_main_v93 (F := Ideal) x0 x1 x3 x4 x5 x6) x2 := rfl

/-! ## The parameter slices -/

theorem w1_0 : val_main_v16 (F := Ideal) x3 = Cert.Gin.w_0 x3 := rfl
theorem b1_0 : val_main_v19 (F := Ideal) x4 = Cert.Gin.bvec_0 x4 := rfl
theorem w2_0 : val_main_v25 (F := Ideal) x5 = Cert.Gin.w_0 x5 := rfl
theorem b2_0 : val_main_v28 (F := Ideal) x6 = Cert.Gin.bvec_0 x6 := rfl
theorem w1_1 : val_main_v46 (F := Ideal) x3 = Cert.Gin.w_1 x3 := rfl
theorem b1_1 : val_main_v49 (F := Ideal) x4 = Cert.Gin.bvec_1 x4 := rfl
theorem w2_1 : val_main_v55 (F := Ideal) x5 = Cert.Gin.w_1 x5 := rfl
theorem b2_1 : val_main_v58 (F := Ideal) x6 = Cert.Gin.bvec_1 x6 := rfl
theorem w1_2 : val_main_v76 (F := Ideal) x3 = Cert.Gin.w_2 x3 := rfl
theorem b1_2 : val_main_v79 (F := Ideal) x4 = Cert.Gin.bvec_2 x4 := rfl
theorem w2_2 : val_main_v85 (F := Ideal) x5 = Cert.Gin.w_2 x5 := rfl
theorem b2_2 : val_main_v88 (F := Ideal) x6 = Cert.Gin.bvec_2 x6 := rfl

/-! ## The perceptron of a layer, for any operands -/

/-- The host's chain "product, bias row, clamp, product, bias row, clamp, clamp" on any operands is the perceptron of
    every row, the bias vectors read as one-row arrays. -/
theorem host_mlp (A : (⟨S100000x128, .f32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    maximumf (maximumf (addf
        (Host.dotGeneral (F := Ideal) (φ₁ := .f32) (φ₂ := .f32) dot_S100000x128_S128x128_S100000x128_1_0_0_1_n_n none
          (maximumf (addf
              (Host.dotGeneral (F := Ideal) (φ₁ := .f32) (φ₂ := .f32) dot_S100000x128_S128x128_S100000x128_1_0_0_1_n_n none A w1)
              (broadcastInDim S100000x128 ![0, 1] bcast_S1x128_S100000x128_0_1
                (broadcastInDim S1x128 ![1] bcast_S128_S1x128_1 b1)))
            (broadcastInDim S100000x128 ![] bcast_S_S100000x128 (constant (F := Ideal) S_ .f32 0x00000000#32)))
          w2)
        (broadcastInDim S100000x128 ![0, 1] bcast_S1x128_S100000x128_0_1
          (broadcastInDim S1x128 ![1] bcast_S128_S1x128_1 b2)))
      (broadcastInDim S100000x128 ![] bcast_S_S100000x128 (constant (F := Ideal) S_ .f32 0x00000000#32)))
      (broadcastInDim S100000x128 ![] bcast_S_S100000x128 (constant (F := Ideal) S_ .f32 0x00000000#32))
    = Cert.Gin.mlp A w1 (Cert.Gin.brow b1) w2 (Cert.Gin.brow b2) := by
  rw [hostDot_eq (φ₁ := .f32) (φ₂ := .f32) dot_S100000x128_S128x128_S100000x128_1_0_0_1_n_n rfl rfl rfl rfl rfl rfl rfl rfl none A w1,
    host_reluAddRow (rowsTimes A w1) b1 Cert.KernelIdeal.Facts₀.shapeCasts_S128_S1x128 bcast_S128_S1x128_1
      bcast_S1x128_S100000x128_0_1 bcast_S_S100000x128,
    hostDot_eq (φ₁ := .f32) (φ₂ := .f32) dot_S100000x128_S128x128_S100000x128_1_0_0_1_n_n rfl rfl rfl rfl rfl rfl rfl rfl none _ w2,
    host_reluAddRow _ b2 Cert.KernelIdeal.Facts₀.shapeCasts_S128_S1x128 bcast_S128_S1x128_1
      bcast_S1x128_S100000x128_0_1 bcast_S_S100000x128,
    Cert.Gin.host_relu _ bcast_S_S100000x128]
  rfl

/-- Layer 0's perceptron stage is the perceptron of layer 0's aggregate with the stacks' slices 0. -/
theorem mlp_0 : val_main_v33 (F := Ideal) x0 x1 x3 x4 x5 x6
    = Cert.Gin.mlp (val_main_v14 (F := Ideal) x0 x1) (Cert.Gin.w_0 x3) (Cert.Gin.brow (Cert.Gin.bvec_0 x4))
        (Cert.Gin.w_0 x5) (Cert.Gin.brow (Cert.Gin.bvec_0 x6)) :=
  (host_mlp (val_main_v14 (F := Ideal) x0 x1) (val_main_v16 (F := Ideal) x3) (val_main_v19 (F := Ideal) x4)
    (val_main_v25 (F := Ideal) x5) (val_main_v28 (F := Ideal) x6)).trans
    (by rw [w1_0, b1_0, w2_0, b2_0])

/-- Layer 1's perceptron stage, with the slices 1. -/
theorem mlp_1 : val_main_v63 (F := Ideal) x0 x1 x3 x4 x5 x6
    = Cert.Gin.mlp (val_main_v44 (F := Ideal) x0 x1 x3 x4 x5 x6) (Cert.Gin.w_1 x3) (Cert.Gin.brow (Cert.Gin.bvec_1 x4))
        (Cert.Gin.w_1 x5) (Cert.Gin.brow (Cert.Gin.bvec_1 x6)) :=
  (host_mlp (val_main_v44 (F := Ideal) x0 x1 x3 x4 x5 x6) (val_main_v46 (F := Ideal) x3) (val_main_v49 (F := Ideal) x4)
    (val_main_v55 (F := Ideal) x5) (val_main_v58 (F := Ideal) x6)).trans
    (by rw [w1_1, b1_1, w2_1, b2_1])

/-- Layer 2's perceptron stage, with the slices 2. -/
theorem mlp_2 : val_main_v93 (F := Ideal) x0 x1 x3 x4 x5 x6
    = Cert.Gin.mlp (val_main_v74 (F := Ideal) x0 x1 x3 x4 x5 x6) (Cert.Gin.w_2 x3) (Cert.Gin.brow (Cert.Gin.bvec_2 x4))
        (Cert.Gin.w_2 x5) (Cert.Gin.brow (Cert.Gin.bvec_2 x6)) :=
  (host_mlp (val_main_v74 (F := Ideal) x0 x1 x3 x4 x5 x6) (val_main_v76 (F := Ideal) x3) (val_main_v79 (F := Ideal) x4)
    (val_main_v85 (F := Ideal) x5) (val_main_v88 (F := Ideal) x6)).trans
    (by rw [w1_2, b1_2, w2_2, b2_2])

/-- The node features after the reference's three layers are the network's. -/
theorem feats_eq : val_main_v93 (F := Ideal) x0 x1 x3 x4 x5 x6 = Cert.Gin.feats x0 x1 x3 x4 x5 x6 := by
  rw [mlp_2, agg_2, mlp_1, agg_1, mlp_0, agg_0]
  unfold Cert.Gin.feats Cert.Gin.layer_2 Cert.Gin.layer_1 Cert.Gin.layer_0
  rfl

/-! ## A head, for any operands -/

/-- The host's "product, bias row" on any operands is the linear head, the bias vector read as a one-row array. -/
theorem host_head (g : (⟨S1000x128, .f32⟩ : BufTy).Contents (Elt Ideal))
    (w : (⟨S128x64, .f32⟩ : BufTy).Contents (Elt Ideal)) (b : (⟨S64, .f32⟩ : BufTy).Contents (Elt Ideal)) :
    addf (Host.dotGeneral (F := Ideal) (φ₁ := .f32) (φ₂ := .f32) dot_S1000x128_S128x64_S1000x64_1_0_0_1_n_n none g w)
        (broadcastInDim S1000x64 ![0, 1] bcast_S1x64_S1000x64_0_1 (broadcastInDim S1x64 ![1] bcast_S64_S1x64_1 b))
      = Cert.Gin.head g w (Cert.Gin.hrow b) := by
  rw [hostDot_eq (φ₁ := .f32) (φ₂ := .f32) dot_S1000x128_S128x64_S1000x64_1_0_0_1_n_n rfl rfl rfl rfl rfl rfl rfl rfl none g w,
    host_addRow (rowsTimes g w) b Cert.KernelIdeal.Facts₀.shapeCasts_S64_S1x64 bcast_S64_S1x64_1 bcast_S1x64_S1000x64_0_1]
  rfl

end Stages

/-! ## The two results -/

/-- The reference's first result is the network's result with the first head's parameters. -/
theorem mu_eq (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S3x128x128, .f32⟩ : BufTy).Contents (Elt Ideal))
    (x4 : (⟨S3x128, .f32⟩ : BufTy).Contents (Elt Ideal)) (x5 : (⟨S3x128x128, .f32⟩ : BufTy).Contents (Elt Ideal))
    (x6 : (⟨S3x128, .f32⟩ : BufTy).Contents (Elt Ideal)) (x7 : (⟨S128x64, .f32⟩ : BufTy).Contents (Elt Ideal))
    (x8 : (⟨S64, .f32⟩ : BufTy).Contents (Elt Ideal)) :
    Cert.ReferenceIdeal.Read.val_main_v100 (F := Ideal) x0 x1 x2 x3 x4 x5 x6 x7 x8 = Cert.Gin.out x0 x1 x2 x3 x4 x5 x6 x7 x8 := by
  have h : val_main_v100 (F := Ideal) x0 x1 x2 x3 x4 x5 x6 x7 x8
      = Cert.Gin.head (val_main_v96 (F := Ideal) x0 x1 x2 x3 x4 x5 x6) x7 (Cert.Gin.hrow x8) :=
    host_head (val_main_v96 (F := Ideal) x0 x1 x2 x3 x4 x5 x6) x7 x8
  rw [h, pool_eq, feats_eq]
  unfold Cert.Gin.out
  rfl

/-- The reference's second result is the network's result with the second head's parameters. -/
theorem lv_eq (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S3x128x128, .f32⟩ : BufTy).Contents (Elt Ideal))
    (x4 : (⟨S3x128, .f32⟩ : BufTy).Contents (Elt Ideal)) (x5 : (⟨S3x128x128, .f32⟩ : BufTy).Contents (Elt Ideal))
    (x6 : (⟨S3x128, .f32⟩ : BufTy).Contents (Elt Ideal)) (x9 : (⟨S128x64, .f32⟩ : BufTy).Contents (Elt Ideal))
    (x10 : (⟨S64, .f32⟩ : BufTy).Contents (Elt Ideal)) :
    Cert.ReferenceIdeal.Read.val_main_v104 (F := Ideal) x0 x1 x2 x3 x4 x5 x6 x9 x10 = Cert.Gin.out x0 x1 x2 x3 x4 x5 x6 x9 x10 := by
  have h : val_main_v104 (F := Ideal) x0 x1 x2 x3 x4 x5 x6 x9 x10
      = Cert.Gin.head (val_main_v96 (F := Ideal) x0 x1 x2 x3 x4 x5 x6) x9 (Cert.Gin.hrow x10) :=
    host_head (val_main_v96 (F := Ideal) x0 x1 x2 x3 x4 x5 x6) x9 x10
  rw [h, pool_eq, feats_eq]
  unfold Cert.Gin.out
  rfl

end Cert.RefNet

end
-- ==== Proof.lean ====
/-
  The certificate of a three-layer graph-isomorphism network with two linear heads: the Pallas implementation (three
  perceptron kernels over blocks of 10000 node rows and one kernel for the heads, among the host's gather, accumulating
  scatter and slicing operations) against the plain jnp reference.

  At the ideal instance floats are extended reals, a change of float format is the identity, and a kernel's matrix-unit
  product into a zero accumulator is the same sum of products as the host's `dot_general`. Each perceptron kernel's
  output array is therefore `Cert.Gin.mlp` of its input arrays (its blocks are rows of one row-local function), the head
  kernel's outputs are `Cert.Gin.head`, and the host operations between the kernels are the same operations the reference
  applies. Both programs' results are `Cert.Gin.out` of the arguments, the kernel's read through its segment boundaries
  and the reference's through its stages. The idealization rewrote nothing, so `preserves` is trivial; the three frames
  are the programs' runs.
-/
import proofs.«128393_j13718125543797_1_alg».proof.Defs
import proofs.«128393_j13718125543797_1_alg».proof.Proof.Gen.Kernel
import proofs.«128393_j13718125543797_1_alg».proof.Proof.Gen.Kernel.Skeleton
import proofs.«128393_j13718125543797_1_alg».proof.Proof.Gen.Kernel.Launch
import proofs.«128393_j13718125543797_1_alg».proof.Proof.Gen.Kernel.Points
import proofs.«128393_j13718125543797_1_alg».proof.Proof.Gen.Kernel.Frame
import proofs.«128393_j13718125543797_1_alg».proof.Proof.Gen.KernelIdeal
import proofs.«128393_j13718125543797_1_alg».proof.Proof.Gen.KernelIdeal.Skeleton
import proofs.«128393_j13718125543797_1_alg».proof.Proof.Gen.KernelIdeal.Launch
import proofs.«128393_j13718125543797_1_alg».proof.Proof.Gen.KernelIdeal.Points
import proofs.«128393_j13718125543797_1_alg».proof.Proof.Gen.KernelIdeal.Frame
import proofs.«128393_j13718125543797_1_alg».proof.Proof.Gen.ReferenceIdeal
import proofs.«128393_j13718125543797_1_alg».proof.Proof.Gen.ReferenceIdeal.Run
import proofs.«128393_j13718125543797_1_alg».proof.Proof.Gen.ReferenceIdeal.Read
import proofs.«128393_j13718125543797_1_alg».proof.Proof.Gen.Pre_finite_inputs
import proofs.«128393_j13718125543797_1_alg».proof.Proof.KernelRun
import proofs.«128393_j13718125543797_1_alg».proof.Proof.KernelChain
import proofs.«128393_j13718125543797_1_alg».proof.Proof.MlpRegion0
import proofs.«128393_j13718125543797_1_alg».proof.Proof.MlpRegion1
import proofs.«128393_j13718125543797_1_alg».proof.Proof.MlpRegion2
import proofs.«128393_j13718125543797_1_alg».proof.Proof.HeadRegion
import proofs.«128393_j13718125543797_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result at the SAME function of the launch arguments: the head, of the per-graph sums, of
    three graph-isomorphism layers (`Cert.Gin.out`). The kernel program's side is its run with the final contents kept,
    read back through the segment boundaries to the arguments; the reference's side is its run's composed term, rewritten
    stage by stage. Nothing here needs the arguments to be finite: the two sides are the same sums of the same products. -/
theorem algebraic : Cert.algebraic_KernelIdeal_ReferenceIdeal := by
  intro m ρ m' ρ' _ hagree
  refine ⟨fun c => Cert.Gin.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Gin.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Run.run_results (F := Ideal) m ρ)
    exact ⟨(h c).1.trans (Cert.KernelIdeal.Chain.mu_eq m ρ c Cert.KernelIdeal.MlpRegion0.region_value Cert.KernelIdeal.MlpRegion1.region_value Cert.KernelIdeal.MlpRegion2.region_value Cert.KernelIdeal.HeadRegion.mu_value),
      (h c).2.1.trans (Cert.KernelIdeal.Chain.lv_eq m ρ c Cert.KernelIdeal.MlpRegion0.region_value Cert.KernelIdeal.MlpRegion1.region_value Cert.KernelIdeal.MlpRegion2.region_value Cert.KernelIdeal.HeadRegion.lv_value),
      (h c).2.2⟩
  · refine (θ_run Cert.ReferenceIdeal.defs _ _).mono (fun r h c => ?_) (Cert.ReferenceIdeal.Value.run (F := Ideal) m' ρ')
    obtain ⟨e0, e1, erest⟩ := h c
    obtain ⟨a0, a1, a2, a3, a4, a5, a6, a7, a8, a9, a10⟩ := hagree c
    refine ⟨e0.trans ?_, e1.trans ?_, erest⟩
    · rw [Cert.ReferenceIdeal.Read.val_main_v100_eq, Cert.RefNet.mu_eq, a0, a1, a2, a3, a4, a5, a6, a7, a8]
    · rw [Cert.ReferenceIdeal.Read.val_main_v104_eq, Cert.RefNet.lv_eq, a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
